-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x4096 : Shape := ⟨3, ![4, 1024, 4096]⟩
abbrev S4096x4096 : Shape := ⟨2, ![4096, 4096]⟩
abbrev S4096 : Shape := ⟨1, ![4096]⟩
abbrev S2000 : Shape := ⟨1, ![2000]⟩
abbrev S2x2000 : Shape := ⟨2, ![2, 2000]⟩
abbrev S_ : Shape := ⟨0, ![]⟩

class Facts : Prop where
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S2000 : S_.BroadcastsInDim S2000 (![] : Fin 0 → Fin S2000.rank)
  reducesTo_S2000_S_d0 : S2000.ReducesTo [0] S_

variable [Facts]

def fn_part1 {F : FTy → Type} [FloatOps F] (main_v13 : IVec S_ 1) (main_v16 : IVec S2000 1) : IVec S_ 1 :=
  let main_c_5 : IVec S_ 1 := constantI S_ 1 1#1
  let main_v17 : IVec S_ 1 := (fun x v => Host.reduce IntOp.andi x v reducesTo_S2000_S_d0 h_S_) main_v16 main_c_5
  let main_v18 : IVec S_ 1 := andi main_v13 main_v17
  main_v18

def fn {F : FTy → Type} [FloatOps F] (main_arg0 : FVec F S4x1024x4096 .f32) (main_arg1 : FVec F S4096x4096 .f32) (main_arg2 : FVec F S4096 .f32) (main_arg3 : FVec F S2000 .f32) (main_arg4 : IVec S2x2000 32) : IVec S_ 1 :=
  let main_v0 : FVec F S4x1024x4096 .f32 := Host.absf main_arg0
  let main_cst : FVec F S_ .f32 := constant S_ .f32 0x7F800000#32
  let main_v1 : FVec F S4x1024x4096 .f32 := broadcastInDim S4x1024x4096 ![] bcast_S_S4x1024x4096 main_cst
  let main_v2 : IVec S4x1024x4096 1 := cmpf .olt main_v0 main_v1
  let main_c : IVec S_ 1 := constantI S_ 1 1#1
  let main_v3 : IVec S_ 1 := (fun x v => Host.reduce IntOp.andi x v reducesTo_S4x1024x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S2000 .f32 := Host.absf main_arg3
  let main_cst_4 : FVec F S_ .f32 := constant S_ .f32 0x7F800000#32
  let main_v15 : FVec F S2000 .f32 := broadcastInDim S2000 ![] bcast_S_S2000 main_cst_4
  let main_v16 : IVec S2000 1 := cmpf .olt main_v14 main_v15
  fn_part1 (F := F) main_v13 main_v16
-- ==== Kernel.lean ====
abbrev S4x1024x4096 : Shape := ⟨3, ![4, 1024, 4096]⟩
abbrev S4096x4096 : Shape := ⟨2, ![4096, 4096]⟩
abbrev S4096 : Shape := ⟨1, ![4096]⟩
abbrev S2000 : Shape := ⟨1, ![2000]⟩
abbrev S2x2000 : Shape := ⟨2, ![2, 2000]⟩
abbrev S_ : Shape := ⟨0, ![]⟩
abbrev S1x2000 : Shape := ⟨2, ![1, 2000]⟩
abbrev S2000x1 : Shape := ⟨2, ![2000, 1]⟩
abbrev S2000x2 : Shape := ⟨2, ![2000, 2]⟩
abbrev S2048x2048 : Shape := ⟨2, ![2048, 2048]⟩
abbrev S2048x1x2048 : Shape := ⟨3, ![2048, 1, 2048]⟩
abbrev S2048x2x2048 : Shape := ⟨3, ![2048, 2, 2048]⟩
abbrev S4096x2048 : Shape := ⟨2, ![4096, 2048]⟩
abbrev S4096x2048x1 : Shape := ⟨3, ![4096, 2048, 1]⟩
abbrev S4096x2048x2 : Shape := ⟨3, ![4096, 2048, 2]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 78
  | .vmem => 9
  | .smem => 0
  | _ => 0

abbrev bufTy : (tb : Table) → Fin (tcTables nBuf tb) → BufTy
  | .hbm, ⟨0, _⟩ => ⟨S4x1024x4096, .f32⟩
  | .hbm, ⟨1, _⟩ => ⟨S4096x4096, .f32⟩
  | .hbm, ⟨2, _⟩ => ⟨S4096, .f32⟩
  | .hbm, ⟨3, _⟩ => ⟨S2000, .f32⟩
  | .hbm, ⟨4, _⟩ => ⟨S2x2000, .i32⟩
  | .hbm, ⟨5, _⟩ => ⟨S_, .f32⟩
  | .hbm, ⟨6, _⟩ => ⟨S4096x4096, .f32⟩
  | .hbm, ⟨7, _⟩ => ⟨S1x2000, .i32⟩
  | .hbm, ⟨8, _⟩ => ⟨S2000, .i32⟩
  | .hbm, ⟨9, _⟩ => ⟨S1x2000, .i32⟩
  | .hbm, ⟨10, _⟩ => ⟨S2000, .i32⟩
  | .hbm, ⟨11, _⟩ => ⟨S_, .i32⟩
  | .hbm, ⟨12, _⟩ => ⟨S2000, .i32⟩
  | .hbm, ⟨13, _⟩ => ⟨S2000, .i1⟩
  | .hbm, ⟨14, _⟩ => ⟨S_, .i32⟩
  | .hbm, ⟨15, _⟩ => ⟨S2000, .i32⟩
  | .hbm, ⟨16, _⟩ => ⟨S2000, .i32⟩
  | .hbm, ⟨17, _⟩ => ⟨S2000, .i32⟩
  | .hbm, ⟨18, _⟩ => ⟨S_, .i32⟩
  | .hbm, ⟨19, _⟩ => ⟨S2000, .i32⟩
  | .hbm, ⟨20, _⟩ => ⟨S2000, .i1⟩
  | .hbm, ⟨21, _⟩ => ⟨S_, .i32⟩
  | .hbm, ⟨22, _⟩ => ⟨S2000, .i32⟩
  | .hbm, ⟨23, _⟩ => ⟨S2000, .i32⟩
  | .hbm, ⟨24, _⟩ => ⟨S2000, .i32⟩
  | .hbm, ⟨25, _⟩ => ⟨S2000x1, .i32⟩
  | .hbm, ⟨26, _⟩ => ⟨S2000x1, .i32⟩
  | .hbm, ⟨27, _⟩ => ⟨S2000x2, .i32⟩
  | .hbm, ⟨28, _⟩ => ⟨S4096x4096, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x1x2048, .f32⟩
  | .hbm, ⟨42, _⟩ => ⟨S2048x1x2048, .f32⟩
  | .hbm, ⟨43, _⟩ => ⟨S2048x2x2048, .f32⟩
  | .hbm, ⟨44, _⟩ => ⟨S4096x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S2048x1x2048, .f32⟩
  | .hbm, ⟨54, _⟩ => ⟨S2048x1x2048, .f32⟩
  | .hbm, ⟨55, _⟩ => ⟨S2048x2x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096x2048, .f32⟩
  | .hbm, ⟨64, _⟩ => ⟨S4096x2048, .f32⟩
  | .hbm, ⟨65, _⟩ => ⟨S4096x2048x1, .f32⟩
  | .hbm, ⟨66, _⟩ => ⟨S4096x2048x1, .f32⟩
  | .hbm, ⟨67, _⟩ => ⟨S4096x2048x2, .f32⟩
  | .hbm, ⟨68, _⟩ => ⟨S4096x4096, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S1x4096, .f32⟩
  | .hbm, ⟨76, _⟩ => ⟨S4096x4096, .f32⟩
  | .hbm, ⟨77, _⟩ => ⟨S4x1024x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  slices_S2x2000_S1x2000_0_0 : S2x2000.Slices ![0, 0] S1x2000
  shapeCasts_S1x2000_S2000 : S1x2000.ShapeCasts S2000
  slices_S2x2000_S1x2000_1_0 : S2x2000.Slices ![1, 0] S1x2000
  bcast_S_S2000 : S_.BroadcastsInDim S2000 (![] : Fin 0 → Fin S2000.rank)
  bcast_S2000_S2000x1_0 : S2000.BroadcastsInDim S2000x1 (![0] : Fin 1 → Fin S2000x1.rank)
  concatenates_S2000x1_S2000x1_S2000x2_d1 : Shape.Concatenates [S2000x1, S2000x1] S2000x2 1
  slices_S4096x4096_S2048x2048_0_0 : S4096x4096.Slices ![0, 0] S2048x2048
  slices_S4096x4096_S2048x2048_0_2048 : S4096x4096.Slices ![0, 2048] S2048x2048
  slices_S4096x4096_S2048x2048_2048_0 : S4096x4096.Slices ![2048, 0] S2048x2048
  slices_S4096x4096_S2048x2048_2048_2048 : S4096x4096.Slices ![2048, 2048] S2048x2048
  bcast_S_S2048x2048 : S_.BroadcastsInDim S2048x2048 (![] : Fin 0 → Fin S2048x2048.rank)
  bcast_S2048x2048_S2048x1x2048_0_2 : S2048x2048.BroadcastsInDim S2048x1x2048 (![0, 2] : Fin 2 → Fin S2048x1x2048.rank)
  concatenates_S2048x1x2048_S2048x1x2048_S2048x2x2048_d1 : Shape.Concatenates [S2048x1x2048, S2048x1x2048] S2048x2x2048 1
  shapeCasts_S2048x2x2048_S4096x2048 : S2048x2x2048.ShapeCasts S4096x2048
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  transposes_S4096x4096_S4096x4096_1_0 : S4096x4096.Transposes [1, 0] S4096x4096
  shapeCasts_S4x1024x4096_S4096x4096 : S4x1024x4096.ShapeCasts S4096x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x4096_S4x1024x4096 : S4096x4096.ShapeCasts S4x1024x4096
  scatter_S4096x4096_S2000x2_S2000_n_01_01_1_wf : ScatterDims.WF S4096x4096 S2000x2 S2000 [] [0, 1] [0, 1] 1
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)

variable [Facts₀]

def scatter_S4096x4096_S2000x2_S2000_n_01_01_1 : ScatterDims S4096x4096 S2000x2 S2000 where
  updateWindowDims := []
  insertedWindowDims := [0, 1]
  scatterDimsToOperandDims := [0, 1]
  indexVectorDim := 1
  wf := scatter_S4096x4096_S2000x2_S2000_n_01_01_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v57) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x1024x4096 : Shape := ⟨3, ![4, 1024, 4096]⟩
abbrev S4096x4096 : Shape := ⟨2, ![4096, 4096]⟩
abbrev S4096 : Shape := ⟨1, ![4096]⟩
abbrev S2000 : Shape := ⟨1, ![2000]⟩
abbrev S2x2000 : Shape := ⟨2, ![2, 2000]⟩
abbrev S1x1x4096 : Shape := ⟨3, ![1, 1, 4096]⟩
abbrev S_ : Shape := ⟨0, ![]⟩
abbrev S1x2000 : Shape := ⟨2, ![1, 2000]⟩
abbrev S2000x1 : Shape := ⟨2, ![2000, 1]⟩
abbrev S2000x2 : Shape := ⟨2, ![2000, 2]⟩
abbrev S2048x2048 : Shape := ⟨2, ![2048, 2048]⟩
abbrev S2048x1x2048 : Shape := ⟨3, ![2048, 1, 2048]⟩
abbrev S2048x2x2048 : Shape := ⟨3, ![2048, 2, 2048]⟩
abbrev S4096x2048 : Shape := ⟨2, ![4096, 2048]⟩
abbrev S4096x2048x1 : Shape := ⟨3, ![4096, 2048, 1]⟩
abbrev S4096x2048x2 : Shape := ⟨3, ![4096, 2048, 2]⟩

abbrev nBuf : Space → Nat
  | .hbm => 78
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S4096x4096, .f32⟩
  | .hbm, ⟨2, _⟩ => ⟨S4096, .f32⟩
  | .hbm, ⟨3, _⟩ => ⟨S2000, .f32⟩
  | .hbm, ⟨4, _⟩ => ⟨S2x2000, .i32⟩
  | .hbm, ⟨5, _⟩ => ⟨S4x1024x4096, .f32⟩
  | .hbm, ⟨6, _⟩ => ⟨S1x1x4096, .f32⟩
  | .hbm, ⟨7, _⟩ => ⟨S4x1024x4096, .f32⟩
  | .hbm, ⟨8, _⟩ => ⟨S4x1024x4096, .f32⟩
  | .hbm, ⟨9, _⟩ => ⟨S_, .f32⟩
  | .hbm, ⟨10, _⟩ => ⟨S4096x4096, .f32⟩
  | .hbm, ⟨11, _⟩ => ⟨S1x2000, .i32⟩
  | .hbm, ⟨12, _⟩ => ⟨S2000, .i32⟩
  | .hbm, ⟨13, _⟩ => ⟨S1x2000, .i32⟩
  | .hbm, ⟨14, _⟩ => ⟨S2000, .i32⟩
  | .hbm, ⟨15, _⟩ => ⟨S_, .i32⟩
  | .hbm, ⟨16, _⟩ => ⟨S2000, .i32⟩
  | .hbm, ⟨17, _⟩ => ⟨S2000, .i1⟩
  | .hbm, ⟨18, _⟩ => ⟨S_, .i32⟩
  | .hbm, ⟨19, _⟩ => ⟨S2000, .i32⟩
  | .hbm, ⟨20, _⟩ => ⟨S2000, .i32⟩
  | .hbm, ⟨21, _⟩ => ⟨S2000, .i32⟩
  | .hbm, ⟨22, _⟩ => ⟨S_, .i32⟩
  | .hbm, ⟨23, _⟩ => ⟨S2000, .i32⟩
  | .hbm, ⟨24, _⟩ => ⟨S2000, .i1⟩
  | .hbm, ⟨25, _⟩ => ⟨S_, .i32⟩
  | .hbm, ⟨26, _⟩ => ⟨S2000, .i32⟩
  | .hbm, ⟨27, _⟩ => ⟨S2000, .i32⟩
  | .hbm, ⟨28, _⟩ => ⟨S2000, .i32⟩
  | .hbm, ⟨29, _⟩ => ⟨S2000x1, .i32⟩
  | .hbm, ⟨30, _⟩ => ⟨S2000x1, .i32⟩
  | .hbm, ⟨31, _⟩ => ⟨S2000x2, .i32⟩
  | .hbm, ⟨32, _⟩ => ⟨S4096x4096, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x1x2048, .f32⟩
  | .hbm, ⟨46, _⟩ => ⟨S2048x1x2048, .f32⟩
  | .hbm, ⟨47, _⟩ => ⟨S2048x2x2048, .f32⟩
  | .hbm, ⟨48, _⟩ => ⟨S4096x2048, .f32⟩
  | .hbm, ⟨49, _⟩ => ⟨S2048x2048, .f32⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048x2048, .f32⟩
  | .hbm, ⟨56, _⟩ => ⟨S2048x2048, .f32⟩
  | .hbm, ⟨57, _⟩ => ⟨S2048x1x2048, .f32⟩
  | .hbm, ⟨58, _⟩ => ⟨S2048x1x2048, .f32⟩
  | .hbm, ⟨59, _⟩ => ⟨S2048x2x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | .hbm, ⟨69, _⟩ => ⟨S4096x2048x1, .f32⟩
  | .hbm, ⟨70, _⟩ => ⟨S4096x2048x1, .f32⟩
  | .hbm, ⟨71, _⟩ => ⟨S4096x2048x2, .f32⟩
  | .hbm, ⟨72, _⟩ => ⟨S4096x4096, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4x1024x4096, .f32⟩
  | .hbm, ⟨77, _⟩ => ⟨S4x1024x4096, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x1024x4096_0_1_2 : S1x1x4096.BroadcastsInDim S4x1024x4096 (![0, 1, 2] : Fin 3 → Fin S4x1024x4096.rank)
  bcast_S_S4096x4096 : S_.BroadcastsInDim S4096x4096 (![] : Fin 0 → Fin S4096x4096.rank)
  slices_S2x2000_S1x2000_0_0 : S2x2000.Slices ![0, 0] S1x2000
  shapeCasts_S1x2000_S2000 : S1x2000.ShapeCasts S2000
  slices_S2x2000_S1x2000_1_0 : S2x2000.Slices ![1, 0] S1x2000
  bcast_S_S2000 : S_.BroadcastsInDim S2000 (![] : Fin 0 → Fin S2000.rank)
  bcast_S2000_S2000x1_0 : S2000.BroadcastsInDim S2000x1 (![0] : Fin 1 → Fin S2000x1.rank)
  concatenates_S2000x1_S2000x1_S2000x2_d1 : Shape.Concatenates [S2000x1, S2000x1] S2000x2 1
  slices_S4096x4096_S2048x2048_0_0 : S4096x4096.Slices ![0, 0] S2048x2048
  slices_S4096x4096_S2048x2048_0_2048 : S4096x4096.Slices ![0, 2048] S2048x2048
  slices_S4096x4096_S2048x2048_2048_0 : S4096x4096.Slices ![2048, 0] S2048x2048
  slices_S4096x4096_S2048x2048_2048_2048 : S4096x4096.Slices ![2048, 2048] S2048x2048
  bcast_S_S2048x2048 : S_.BroadcastsInDim S2048x2048 (![] : Fin 0 → Fin S2048x2048.rank)
  bcast_S2048x2048_S2048x1x2048_0_2 : S2048x2048.BroadcastsInDim S2048x1x2048 (![0, 2] : Fin 2 → Fin S2048x1x2048.rank)
  concatenates_S2048x1x2048_S2048x1x2048_S2048x2x2048_d1 : Shape.Concatenates [S2048x1x2048, S2048x1x2048] S2048x2x2048 1
  shapeCasts_S2048x2x2048_S4096x2048 : S2048x2x2048.ShapeCasts S4096x2048
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  dot_S4x1024x4096_S4096x4096_S4x1024x4096_2_1_01_0_n_n_wf : DotDims.WF S4x1024x4096 S4096x4096 S4x1024x4096 [2] [1] [0, 1] [0] [] []
  scatter_S4096x4096_S2000x2_S2000_n_01_01_1_wf : ScatterDims.WF S4096x4096 S2000x2 S2000 [] [0, 1] [0, 1] 1
  dot_S4x1024x4096_S4096x4096_S4x1024x4096_2_0_01_1_n_n_wf : DotDims.WF S4x1024x4096 S4096x4096 S4x1024x4096 [2] [0] [0, 1] [1] [] []

variable [Facts₀]

def dot_S4x1024x4096_S4096x4096_S4x1024x4096_2_1_01_0_n_n : DotDims S4x1024x4096 S4096x4096 S4x1024x4096 where
  lhsContracting := [2]
  rhsContracting := [1]
  lhsNonContracting := [0, 1]
  rhsNonContracting := [0]
  lhsBatch := []
  rhsBatch := []
  wf := dot_S4x1024x4096_S4096x4096_S4x1024x4096_2_1_01_0_n_n_wf
def scatter_S4096x4096_S2000x2_S2000_n_01_01_1 : ScatterDims S4096x4096 S2000x2 S2000 where
  updateWindowDims := []
  insertedWindowDims := [0, 1]
  scatterDimsToOperandDims := [0, 1]
  indexVectorDim := 1
  wf := scatter_S4096x4096_S2000x2_S2000_n_01_01_1_wf
def dot_S4x1024x4096_S4096x4096_S4x1024x4096_2_0_01_1_n_n : DotDims S4x1024x4096 S4096x4096 S4x1024x4096 where
  lhsContracting := [2]
  rhsContracting := [0]
  lhsNonContracting := [0, 1]
  rhsNonContracting := [1]
  lhsBatch := []
  rhsBatch := []
  wf := dot_S4x1024x4096_S4096x4096_S4x1024x4096_2_0_01_1_n_n_wf

class Facts : Prop extends Facts₀ where

variable [Facts]
-- ==== Proof.BodyValue.lean ====
/-
  What the kernel body's three stores write, read entry by entry on the extended reals.

  The body works on one block of the product: `x` is a [512, 1024] block of the left matrix, `w` the matching
  [1024, 1024] block of the combined weight, `acc` the [512, 1024] running block of the product kept between
  grid points, `b` a [1, 1024] slice of the bias.
    * the reset stores the zero block;
    * every point stores `acc + x · w`: at (p, q), `acc(p,q) + ∑ₖ x(p,k) · w(k,q)` over the block's 1024 columns
      — the two narrowings to bf16 before the product change nothing on exact values, and the product starts from a
      zero accumulator;
    * the last point of a run along the contraction axis stores `acc + b` with the bias row repeated down the rows:
      at (p, q), `acc(p,q) + b(0,q)`.
-/
import proofs.«123005_j58669253264028_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx
open scoped BigOperators

/-- The reset's block is zero everywhere. -/
theorem reset_apply (j : S512x1024.Idx) : k0_pay1 (F := Ideal) j = 0 := by
  unfold k0_pay1
  rw [shapeCast_self]
  exact Ideal.ofBits_zero_f32

/-- The product's left operand is read at the output row (axis 0 is not contracted). -/
theorem lhs_row (j : S512x1024.Idx) (k : dot_S512x1024_S1024x1024_S512x1024_1_0_0_1_n_n.contr.Idx) : (dot_S512x1024_S1024x1024_S512x1024_1_0_0_1_n_n.lhsIdx j k 0).val = (j 0).val := by
  unfold DotDims.lhsIdx
  rw [dif_neg (show ¬(0 : Fin S512x1024.rank) ∈ (dot_S512x1024_S1024x1024_S512x1024_1_0_0_1_n_n).lhsBatch by decide),
    dif_pos (show (0 : Fin S512x1024.rank) ∈ (dot_S512x1024_S1024x1024_S512x1024_1_0_0_1_n_n).lhsNonContracting by decide)]
  rfl

/-- The product's right operand is read at the output column (axis 1 is not contracted). -/
theorem rhs_col (j : S512x1024.Idx) (k : dot_S512x1024_S1024x1024_S512x1024_1_0_0_1_n_n.contr.Idx) : (dot_S512x1024_S1024x1024_S512x1024_1_0_0_1_n_n.rhsIdx j k 1).val = (j 1).val := by
  unfold DotDims.rhsIdx
  rw [dif_neg (show ¬(1 : Fin S1024x1024.rank) ∈ (dot_S512x1024_S1024x1024_S512x1024_1_0_0_1_n_n).rhsBatch by decide),
    dif_pos (show (1 : Fin S1024x1024.rank) ∈ (dot_S512x1024_S1024x1024_S512x1024_1_0_0_1_n_n).rhsNonContracting by decide)]
  rfl

/-- The block product read at (p, q): the sum over the block's 1024 contraction columns. -/
theorem blockProduct_apply (x : FVec Ideal S512x1024 .bf16) (w : FVec Ideal S1024x1024 .bf16) (p : Fin 512) (q : Fin 1024) :
    matmul (F := Ideal) dot_S512x1024_S1024x1024_S512x1024_1_0_0_1_n_n none x w (constant S512x1024 .f32 0x00000000#32) (ix2 p q)
      = ∑ k : Fin 1024, x (ix2 p k) * w (ix2 k q) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q)
      ((contrEquiv1 dot_S512x1024_S1024x1024_S512x1024_1_0_0_1_n_n 1024 rfl rfl).symm k) = ix2 p k :=
    funext fun a => Fin.ext (by
      match a with
      | ⟨0, _⟩ => exact lhs_row _ _
      | ⟨1, _⟩ => exact (dot_S512x1024_S1024x1024_S512x1024_1_0_0_1_n_n.lhsIdx_val_of_single rfl _ _).trans hk)
  have er : dot_S512x1024_S1024x1024_S512x1024_1_0_0_1_n_n.rhsIdx (ix2 p q)
      ((contrEquiv1 dot_S512x1024_S1024x1024_S512x1024_1_0_0_1_n_n 1024 rfl rfl).symm k) = ix2 k q :=
    funext fun a => Fin.ext (by
      match a with
      | ⟨0, _⟩ => exact (dot_S512x1024_S1024x1024_S512x1024_1_0_0_1_n_n.rhsIdx_val_of_single rfl _ _).trans hk
      | ⟨1, _⟩ => exact rhs_col _ _)
  rw [el, er]

/-- The accumulating store at (p, q): the block of the product so far, plus this block's share of the contraction. -/
theorem accumulate_apply (x : Vec Ideal S512x1024 .f32) (w : Vec Ideal S1024x1024 .f32) (acc : Vec Ideal S512x1024 .f32)
    (p : Fin 512) (q : Fin 1024) :
    k0_pay2 (F := Ideal) x w acc (ix2 p q) = acc (ix2 p q) + ∑ k : Fin 1024, x (ix2 p k) * w (ix2 k q) := by
  unfold k0_pay2
  simp only [shapeCast_self]
  rw [addf_apply, blockProduct_apply]
  rfl

/-- The closing store at (p, q): the finished block of the product plus the bias of column q. -/
theorem addBias_apply (acc : Vec Ideal S512x1024 .f32) (b : Vec Ideal S1x1024 .f32) (p : Fin 512) (q : Fin 1024) :
    k0_pay3 (F := Ideal) acc b (ix2 p q) = acc (ix2 p q) + b (ix2 (0 : Fin 1) q) := by
  unfold k0_pay3
  simp only [shapeCast_self]
  rw [addf_apply, broadcastTo_1b_ab_apply]

end Cert.KernelIdeal.BodyValue

end
-- ==== Proof.BodyPieces.lean ====
/-
  What one run of the kernel body leaves behind, as values of the body's three stores.

  The body keeps a running [512, 1024] block `acc` of the product in a buffer of its own, from one grid point to the
  next.  A grid point is in one of three situations, by its position k along the contraction axis:
    * first (k = 0): the block is reset to zero and this point's share `x · w` is added — the buffer ends at
      `accumulate x w reset`;
    * middle (k = 1, 2): the share is added to what the previous point left — `accumulate x w acc`;
    * last (k = 3): the same, and then the block plus the bias row is stored into the output's block —
      the buffer ends at `accumulate x w acc`, the output's block at `addBias (accumulate x w acc) b`.
  Each statement is about a single store that covers its whole buffer, so what is read back is exactly the stored
  value; a load that follows a store of the same run reads that store's value.  Nothing here depends on what the
  three stored values are: they stay the named payloads `k0_pay1` (reset), `k0_pay2` (accumulate), `k0_pay3` (add bias).
-/
import proofs.«123005_j58669253264028_1_alg».proof.Proof.Gen.KernelIdeal.Frame
import Idealize.ShloMosaic.Lib.Pipeline.Value
import Idealize.ShloMosaic.Lib.Tactic

set_option maxRecDepth 16384

noncomputable section

namespace Cert.KernelIdeal.BodyPieces

open Cert.KernelIdeal Cert.KernelIdeal.Gen Idealize.ShloMosaic Idealize.ShloMosaic.TcCoe Idealize.SL.Sem Idealize.ShloMosaic.Tactic

variable {F : FTy → Type} [FloatOps F]

theorem zeroOffsets : (![0, 0] : Fin 2 → Nat) = fun _ => 0 := funext fun a => by fin_cases a <;> rfl

/-- MIDDLE point: the carried block ends at the previous block plus this point's share. -/
theorem carried_middle (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i)
    (x : Vec F S512x1024 .f32) (w : Vec F S1024x1024 .f32) (b : Vec F S1x1024 .f32) (acc : Vec F S512x1024 .f32) :
    sout0_B_0 c i arg3 harg3 arg4 harg4 arg5 harg5 arg6 harg6 arg7 harg7 hc0 hc1 x w b acc = k0_pay2 x w acc := by
  unfold sout0_B_0
  rw [View.read_writes_eq_canon _ _ _ (scover0_B_0 c i arg3 harg3 arg4 harg4 arg5 harg5 arg6 harg6 arg7 harg7 hc0 hc1 x w b acc)]
  unfold kernelRun0_B
  dsimp only
  rw [View.canon_unit_zero zeroOffsets]
  simp only [View.readAt_eq_ld, harg3.read_unread, harg4.read_unread, harg7.read_unread,
    View.ld_unit_zero (S := S512x1024) zeroOffsets, View.ld_unit_zero (S := S1024x1024) zeroOffsets]

/-- FIRST point: the carried block is reset, then ends at the reset block plus this point's share. -/
theorem carried_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x : Vec F S512x1024 .f32) (w : Vec F S1024x1024 .f32) (b : Vec F S1x1024 .f32) :
    sout0_A_0 c i arg3 harg3 arg4 harg4 arg5 harg5 arg6 harg6 arg7 harg7 hc0 hc1 x w b = k0_pay2 x w (k0_pay1 (F := F)) := by
  unfold sout0_A_0
  rw [View.read_writes_eq_canon _ _ _ (scover0_A_0 c i arg3 harg3 arg4 harg4 arg5 harg5 arg6 harg6 arg7 harg7 hc0 hc1 x w b)]
  unfold kernelRun0_A
  dsimp only
  sl_unfold_words
  rw [View.canon_cons_unit_zero (S := S512x1024) zeroOffsets, View.readCov_unit_zero (S := S512x1024) _ zeroOffsets]
  simp only [View.readAt_eq_ld, harg3.read_unread, harg4.read_unread,
    View.ld_unit_zero (S := S512x1024) zeroOffsets, View.ld_unit_zero (S := S1024x1024) zeroOffsets]

/-- LAST point: the carried block ends, as at a middle point, at the previous block plus this point's share; -/
theorem carried_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x : Vec F S512x1024 .f32) (w : Vec F S1024x1024 .f32) (b : Vec F S1x1024 .f32) (acc : Vec F S512x1024 .f32) :
    sout0_C_0 c i arg3 harg3 arg4 harg4 arg5 harg5 arg6 harg6 arg7 harg7 hc0 hc1 x w b acc = k0_pay2 x w acc := by
  unfold sout0_C_0
  rw [View.read_writes_eq_canon _ _ _ (scover0_C_0 c i arg3 harg3 arg4 harg4 arg5 harg5 arg6 harg6 arg7 harg7 hc0 hc1 x w b acc)]
  unfold kernelRun0_C
  dsimp only
  sl_unfold_words
  rw [View.canon_unit_zero zeroOffsets]
  simp only [View.readAt_eq_ld, harg3.read_unread, harg4.read_unread, harg7.read_unread,
    View.ld_unit_zero (S := S512x1024) zeroOffsets, View.ld_unit_zero (S := S1024x1024) zeroOffsets]

/-- and the output's block ends at that finished block plus the bias row. -/
theorem output_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x : Vec F S512x1024 .f32) (w : Vec F S1024x1024 .f32) (b : Vec F S1x1024 .f32) (acc : Vec F S512x1024 .f32) :
    out0_C_3 c i arg3 harg3 arg4 harg4 arg5 harg5 arg6 harg6 arg7 harg7 hc0 hc1 x w b acc = k0_pay3 (k0_pay2 x w acc) b := by
  unfold out0_C_3
  rw [View.read_writes_eq_canon _ _ _ (cover0_C_3 c i arg3 harg3 arg4 harg4 arg5 harg5 arg6 harg6 arg7 harg7 hc0 hc1 x w b acc)]
  unfold kernelRun0_C
  dsimp only
  sl_unfold_words
  rw [View.canon_unit_zero zeroOffsets, View.readCov_unit_zero (S := S512x1024) _ zeroOffsets]
  simp only [View.readAt_eq_ld, harg3.read_unread, harg4.read_unread, harg5.read_unread, harg7.read_unread,
    View.ld_unit_zero (S := S512x1024) zeroOffsets, View.ld_unit_zero (S := S1024x1024) zeroOffsets,
    View.ld_unit_zero (S := S1x1024) zeroOffsets]

end Cert.KernelIdeal.BodyPieces

end
-- ==== Proof.RunningSum.lean ====
/-
  The contraction of a row of one matrix with a column of another, taken in blocks.

  The kernel never forms `∑ₖ X(r,k) · W(k,o)` over all 4096 values of k at once: it visits the contraction axis
  in four blocks of 1024 columns and keeps the sum so far.  Here that sum so far is written as a partial sum over
  the first n values of k, with matrix entries read through an accessor that is total in its natural-number
  coordinates (zero outside the matrix), so that the statements about blocks are plain statements about sums over
  ranges of natural numbers:
    * nothing summed yet is 0;
    * the first 1024·(k+1) terms are the first 1024·k terms plus the 1024 terms of block k;
    * all 4096 terms are the full contraction, read at genuine matrix indices.
  Addition of extended reals is commutative and associative, which is all this uses.
-/
import Idealize.ShloMosaic.Lib.ValueIdx
import Mathlib.Data.EReal.Operations
import Mathlib.Algebra.BigOperators.Fin

noncomputable section

namespace Cert.RunningSum

open Idealize.ShloMosaic Idealize.ShloMosaic.ValueIdx
open scoped BigOperators

/-- Entry (r, c) of a matrix with R rows and C columns; zero when (r, c) is outside it. -/
def entry {R C : ℕ} (A : (⟨2, ![R, C]⟩ : Shape).Idx → EReal) (r c : ℕ) : EReal :=
  if h : r < R ∧ c < C then A (ix2 ⟨r, h.1⟩ ⟨c, h.2⟩) else 0

theorem entry_of_lt {R C : ℕ} (A : (⟨2, ![R, C]⟩ : Shape).Idx → EReal) {r c : ℕ} (hr : r < R) (hc : c < C) :
    entry A r c = A (ix2 ⟨r, hr⟩ ⟨c, hc⟩) := dif_pos ⟨hr, hc⟩

theorem entry_fin {R C : ℕ} (A : (⟨2, ![R, C]⟩ : Shape).Idx → EReal) (r : Fin R) (c : Fin C) :
    entry A r.val c.val = A (ix2 r c) := entry_of_lt A r.isLt c.isLt

/-- Term κ of the contraction of row r of `X` with column o of `W`. -/
def term {M K N : ℕ} (X : (⟨2, ![M, K]⟩ : Shape).Idx → EReal) (W : (⟨2, ![K, N]⟩ : Shape).Idx → EReal) (r o κ : ℕ) : EReal :=
  entry X r κ * entry W κ o

/-- The contraction's first n terms. -/
def partialSum {M K N : ℕ} (X : (⟨2, ![M, K]⟩ : Shape).Idx → EReal) (W : (⟨2, ![K, N]⟩ : Shape).Idx → EReal) (r o n : ℕ) : EReal :=
  ∑ κ ∈ Finset.range n, term X W r o κ

theorem partialSum_zero {M K N : ℕ} (X : (⟨2, ![M, K]⟩ : Shape).Idx → EReal) (W : (⟨2, ![K, N]⟩ : Shape).Idx → EReal) (r o : ℕ) :
    partialSum X W r o 0 = 0 := Finset.sum_range_zero _

/-- One more block of B terms: the sum so far plus the block's terms. -/
theorem partialSum_block {M K N : ℕ} (X : (⟨2, ![M, K]⟩ : Shape).Idx → EReal) (W : (⟨2, ![K, N]⟩ : Shape).Idx → EReal)
    (r o B k : ℕ) :
    partialSum X W r o (B * (k + 1)) = partialSum X W r o (B * k) + ∑ j : Fin B, term X W r o (B * k + j.val) := by
  unfold partialSum
  rw [Nat.mul_succ, Finset.sum_range_add, Finset.sum_range (fun x => term X W r o (B * k + x))]

/-- All K terms: the contraction at genuine indices. -/
theorem partialSum_all {M K N : ℕ} (X : (⟨2, ![M, K]⟩ : Shape).Idx → EReal) (W : (⟨2, ![K, N]⟩ : Shape).Idx → EReal)
    (r : Fin M) (o : Fin N) :
    partialSum X W r.val o.val K = ∑ k : Fin K, X (ix2 r k) * W (ix2 k o) := by
  unfold partialSum
  rw [Finset.sum_range]
  refine Finset.sum_congr rfl fun k _ => ?_
  unfold term
  rw [entry_fin, entry_fin]

end Cert.RunningSum

end
-- ==== Proof.Carried.lean ====
/-
  What the kernel holds after each grid point.

  The grid is 8 × 4 × 4: point t stands for (i, j, k) = (t / 16, t / 4 mod 4, t mod 4), and works on rows
  512·i … 512·i + 511 of the left matrix `X`, columns 1024·j … 1024·j + 1023 of the weight `W`, and the k-th block of
  1024 along the contraction axis.  Write r = 512·i + p and o = 1024·j + q for the entry (p, q) of the block.
    * After point t the block carried between points holds, at (p, q), the contraction of row r with column o over
      the first 1024·(k + 1) values of the contraction index — the reset at k = 0 starts it from nothing, and each point
      adds its own 1024 terms.  This is proved by induction on t; nothing enumerates the 128 points.
    * At a point with k = 3 the output's block holds that sum, now over all 4096 values, plus the bias of column o.
-/
import proofs.«123005_j58669253264028_1_alg».proof.Proof.BodyValue
import proofs.«123005_j58669253264028_1_alg».proof.Proof.BodyPieces
import proofs.«123005_j58669253264028_1_alg».proof.Proof.RunningSum

set_option maxRecDepth 16384

noncomputable section

namespace Cert.KernelIdeal.Carried

open Cert.KernelIdeal Cert.KernelIdeal.Gen Idealize.ShloMosaic Idealize.ShloMosaic.TcCoe Idealize.SL.Sem
open Idealize.ShloMosaic.ValueIdx Cert.RunningSum
open scoped BigOperators

variable (m : (ℓ : Loc nD τ sig) → Buf (Elt Ideal) ℓ)

/-- The three arrays the kernel's windows read, as the kernel finds them: the left matrix, the combined weight, the
    bias as a one-row matrix. -/
abbrev leftMat (c : Dev nD) : S4096x4096.Idx → EReal := V m c main_v57
abbrev weight (c : Dev nD) : S4096x4096.Idx → EReal := V m c main_v56
abbrev biasRow (c : Dev nD) : S1x4096.Idx → EReal := V m c main_v58

/-- Which block each window is on at point t, decided over the grid. -/
theorem blockOf : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem point_lt (t : Fin cfg0.N) : t.val < 128 := lt_of_lt_of_eq t.isLt (show cfg0.N = 128 from N_0)

/-- The left matrix's block at point t, at (p, k): row 512·i + p, column 1024·k₀ + k of `X`. -/
theorem leftBlock_apply (c : Dev nD) (t : Fin cfg0.N) (p : Fin 512) (k : Fin 1024) (r κ : ℕ)
    (hr : r = 512 * (t.val / 16) + p.val) (hκ : κ = 1024 * (t.val % 4) + k.val) :
    (iblk m c 0 t : Vec Ideal S512x1024 .f32) (ix2 p k) = entry (leftMat m c) r κ := by
  obtain ⟨e0, e1, -⟩ := blockOf t
  have hN := point_lt t
  subst hr hκ
  rw [entry_of_lt _ (by omega) (by omega)]
  unfold iblk
  rw [View.read_apply]
  show V m c main_v57 _ = V m c main_v57 _
  refine congrArg _ (funext fun a => Fin.ext ?_)
  match a with
  | ⟨0, _⟩ => show win0_0.index t (0 : Fin 2) * 512 + 1 * p.val = 512 * (t.val / 16) + p.val; omega
  | ⟨1, _⟩ => show win0_0.index t (1 : Fin 2) * 1024 + 1 * k.val = 1024 * (t.val % 4) + k.val; omega

/-- The weight's block at point t, at (k, q): row 1024·k₀ + k, column 1024·j + q of `W`. -/
theorem weightBlock_apply (c : Dev nD) (t : Fin cfg0.N) (k : Fin 1024) (q : Fin 1024) (κ o : ℕ)
    (hκ : κ = 1024 * (t.val % 4) + k.val) (ho : o = 1024 * (t.val / 4 % 4) + q.val) :
    (iblk m c 1 t : Vec Ideal S1024x1024 .f32) (ix2 k q) = entry (weight m c) κ o := by
  obtain ⟨-, -, e2, e3, -⟩ := blockOf t
  have hN := point_lt t
  subst hκ ho
  rw [entry_of_lt _ (by omega) (by omega)]
  unfold iblk
  rw [View.read_apply]
  show V m c main_v56 _ = V m c main_v56 _
  refine congrArg _ (funext fun a => Fin.ext ?_)
  match a with
  | ⟨0, _⟩ => show win0_1.index t (0 : Fin 2) * 1024 + 1 * k.val = 1024 * (t.val % 4) + k.val; omega
  | ⟨1, _⟩ => show win0_1.index t (1 : Fin 2) * 1024 + 1 * q.val = 1024 * (t.val / 4 % 4) + q.val; omega

/-- The bias row's block at point t, at (0, q): column 1024·j + q of the bias. -/
theorem biasBlock_apply (c : Dev nD) (t : Fin cfg0.N) (q : Fin 1024) (o : ℕ) (ho : o = 1024 * (t.val / 4 % 4) + q.val) :
    (iblk m c 2 t : Vec Ideal S1x1024 .f32) (ix2 (0 : Fin 1) q) = entry (biasRow m c) 0 o := by
  obtain ⟨-, -, -, -, e4, e5, -⟩ := blockOf t
  have hN := point_lt t
  subst ho
  rw [entry_of_lt _ (by omega) (by omega)]
  unfold iblk
  rw [View.read_apply]
  show V m c main_v58 _ = V m c main_v58 _
  refine congrArg _ (funext fun a => Fin.ext ?_)
  match a with
  | ⟨0, _⟩ => show win0_2.index t (0 : Fin 2) * 1 + 1 * (0 : Fin 1).val = 0; rw [e4]; rfl
  | ⟨1, _⟩ => show win0_2.index t (1 : Fin 2) * 1024 + 1 * q.val = 1024 * (t.val / 4 % 4) + q.val; omega

/-- One point's share of entry (p, q): the 1024 terms of its block of the contraction.  (`xb`, `wb` are the point's two
    blocks.) -/
theorem share_eq (c : Dev nD) (t : Fin cfg0.N) (p : Fin 512) (q : Fin 1024)
    (xb : Vec Ideal S512x1024 .f32) (wb : Vec Ideal S1024x1024 .f32) (hx : xb = iblk m c 0 t) (hw : wb = iblk m c 1 t) :
    ∑ k : Fin 1024, xb (ix2 p k) * wb (ix2 k q)
      = ∑ k : Fin 1024, term (leftMat m c) (weight m c) (512 * (t.val / 16) + p.val) (1024 * (t.val / 4 % 4) + q.val)
          (1024 * (t.val % 4) + k.val) := by
  subst hx hw
  refine Finset.sum_congr rfl fun k _ => ?_
  unfold term
  rw [leftBlock_apply m c t p k _ _ rfl rfl, weightBlock_apply m c t k q _ _ rfl rfl]

/-- THE STEP.  If the block so far holds the contraction's first 1024·k terms at (p, q), the accumulating store leaves
    its first 1024·(k + 1) terms there. -/
theorem step (c : Dev nD) (t : Fin cfg0.N) (acc : Vec Ideal S512x1024 .f32) (p : Fin 512) (q : Fin 1024)
    (hacc : acc (ix2 p q) = partialSum (leftMat m c) (weight m c) (512 * (t.val / 16) + p.val) (1024 * (t.val / 4 % 4) + q.val)
      (1024 * (t.val % 4))) :
    k0_pay2 (F := Ideal) (iblk m c 0 t) (iblk m c 1 t) acc (ix2 p q)
      = partialSum (leftMat m c) (weight m c) (512 * (t.val / 16) + p.val) (1024 * (t.val / 4 % 4) + q.val)
          (1024 * (t.val % 4 + 1)) := by
  refine (BodyValue.accumulate_apply (iblk m c 0 t) (iblk m c 1 t) acc p q).trans ?_
  rw [hacc, partialSum_block]
  exact congrArg (_ + ·) (share_eq m c t p q _ _ rfl rfl)

/-- THE CARRIED BLOCK after point n, at (p, q): the contraction's first 1024·(k + 1) terms. -/
theorem carried_eq (c : Dev nD) : ∀ (n : ℕ) (hn : n < cfg0.N) (p : Fin 512) (q : Fin 1024),
    (outsAt0 m c n hn).2 (ix2 p q)
      = partialSum (leftMat m c) (weight m c) (512 * (n / 16) + p.val) (1024 * (n / 4 % 4) + q.val) (1024 * (n % 4 + 1))
  | 0, hn, p, q => by
    have h1 : ¬(0 : ℕ) % 4 = 3 := by decide
    rw [outsAt0_A m c ⟨0, hn⟩ rfl h1]
    dsimp only
    refine (congrFun (BodyPieces.carried_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _)
      ((hcond0_0 ⟨0, hn⟩).mpr rfl) (fun h => h1 ((hcond0_1 ⟨0, hn⟩).mp h))
      (iblk m c 0 ⟨0, hn⟩) (iblk m c 1 ⟨0, hn⟩) (iblk m c 2 ⟨0, hn⟩)) (ix2 p q)).trans ?_
    refine step m c ⟨0, hn⟩ (k0_pay1 (F := Ideal)) p q ?_
    rw [BodyValue.reset_apply]
    exact (partialSum_zero _ _ _ _).symm
  | n + 1, hn, p, q => by
    have hN : n + 1 < 128 := lt_of_lt_of_eq hn (show cfg0.N = 128 from N_0)
    by_cases h0 : (n + 1) % 4 = 0
    · have h1 : ¬(n + 1) % 4 = 3 := by omega
      rw [outsAt0_A m c ⟨n + 1, hn⟩ h0 h1]
      dsimp only
      refine (congrFun (BodyPieces.carried_first (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _)
        ((hcond0_0 ⟨n + 1, hn⟩).mpr h0) (fun h => h1 ((hcond0_1 ⟨n + 1, hn⟩).mp h))
        (iblk m c 0 ⟨n + 1, hn⟩) (iblk m c 1 ⟨n + 1, hn⟩) (iblk m c 2 ⟨n + 1, hn⟩)) (ix2 p q)).trans ?_
      refine step m c ⟨n + 1, hn⟩ (k0_pay1 (F := Ideal)) p q ?_
      rw [BodyValue.reset_apply]
      show (0 : EReal) = partialSum _ _ _ _ (1024 * ((n + 1) % 4))
      rw [h0]
      exact (partialSum_zero _ _ _ _).symm
    · have ih := carried_eq c n (Nat.lt_of_succ_lt hn) p q
      have e1 : (n + 1) / 16 = n / 16 := by omega
      have e2 : (n + 1) / 4 % 4 = n / 4 % 4 := by omega
      have e3 : (n + 1) % 4 = n % 4 + 1 := by omega
      by_cases h1 : (n + 1) % 4 = 3
      · rw [outsAt0_C m c ⟨n + 1, hn⟩ h0 h1]
        dsimp only
        refine (congrFun (BodyPieces.carried_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _)
          (fun h => h0 ((hcond0_0 ⟨n + 1, hn⟩).mp h)) ((hcond0_1 ⟨n + 1, hn⟩).mpr h1)
          (iblk m c 0 ⟨n + 1, hn⟩) (iblk m c 1 ⟨n + 1, hn⟩) (iblk m c 2 ⟨n + 1, hn⟩)
          (outsAt0 m c n (Nat.lt_of_succ_lt hn)).2) (ix2 p q)).trans ?_
        refine step m c ⟨n + 1, hn⟩ _ p q ?_
        show (outsAt0 m c n _).2 (ix2 p q) = partialSum _ _ (512 * ((n + 1) / 16) + p.val) (1024 * ((n + 1) / 4 % 4) + q.val) (1024 * ((n + 1) % 4))
        rw [ih, e1, e2, e3]
      · rw [outsAt0_B m c ⟨n + 1, hn⟩ h0 h1]
        dsimp only
        refine (congrFun (BodyPieces.carried_middle (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _)
          (fun h => h0 ((hcond0_0 ⟨n + 1, hn⟩).mp h)) (fun h => h1 ((hcond0_1 ⟨n + 1, hn⟩).mp h))
          (iblk m c 0 ⟨n + 1, hn⟩) (iblk m c 1 ⟨n + 1, hn⟩) (iblk m c 2 ⟨n + 1, hn⟩)
          (outsAt0 m c n (Nat.lt_of_succ_lt hn)).2) (ix2 p q)).trans ?_
        refine step m c ⟨n + 1, hn⟩ _ p q ?_
        show (outsAt0 m c n _).2 (ix2 p q) = partialSum _ _ (512 * ((n + 1) / 16) + p.val) (1024 * ((n + 1) / 4 % 4) + q.val) (1024 * ((n + 1) % 4))
        rw [ih, e1, e2, e3]

/-- THE OUTPUT BLOCK at a point with k = 3, at (p, q): the whole contraction of row r with column o, plus the bias of
    column o. -/
theorem output_eq (c : Dev nD) (t : Fin cfg0.N) (h3 : t.val % 4 = 3) (p : Fin 512) (q : Fin 1024) :
    (outsAt0 m c t.val t.isLt).1 (ix2 p q)
      = partialSum (leftMat m c) (weight m c) (512 * (t.val / 16) + p.val) (1024 * (t.val / 4 % 4) + q.val) 4096
        + entry (biasRow m c) 0 (1024 * (t.val / 4 % 4) + q.val) := by
  have h0 : ¬t.val % 4 = 0 := by omega
  have hc := carried_eq m c t.val t.isLt p q
  rw [outsAt0_C m c t h0 h3] at hc ⊢
  dsimp only at hc ⊢
  rw [BodyPieces.carried_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h3)
    (iblk m c 0 t) (iblk m c 1 t) (iblk m c 2 t) (outsAt0 m c (t.val - 1) (Nat.lt_of_le_of_lt (Nat.sub_le _ _) t.isLt)).2] at hc
  refine (congrFun (BodyPieces.output_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h3)
    (iblk m c 0 t) (iblk m c 1 t) (iblk m c 2 t) (outsAt0 m c (t.val - 1) (Nat.lt_of_le_of_lt (Nat.sub_le _ _) t.isLt)).2) (ix2 p q)).trans ?_
  refine (BodyValue.addBias_apply _ (iblk m c 2 t) p q).trans ?_
  rw [hc, biasBlock_apply m c t q _ rfl, h3]

end Cert.KernelIdeal.Carried

end
-- ==== Proof.ProductArray.lean ====
/-
  The kernel's output array, whole: the matrix product plus the bias row.

  `product X W b` is the [4096, 4096] matrix whose entry (r, o) is `∑ₖ X(r,k) · W(k,o) + b(0,o)`.  The output's block
  is written back only at the points with k = 3, one for every (i, j); what such a point writes back is block (i, j) of
  `product` (rows 512·i …, columns 1024·j …), by the previous module.  Every entry (r, o) of the array lies in the block
  of the point (r / 512, o / 1024, 3), so these 32 blocks cover the array and it ends holding `product` everywhere.
-/
import proofs.«123005_j58669253264028_1_alg».proof.Proof.Carried
import Idealize.ShloMosaic.Lib.Pipeline.Value

set_option maxRecDepth 16384

noncomputable section

namespace Cert.KernelIdeal.ProductArray

open Cert.KernelIdeal Cert.KernelIdeal.Gen Idealize.ShloMosaic Idealize.ShloMosaic.TcCoe Idealize.SL.Sem
open Idealize.ShloMosaic.ValueIdx Cert.RunningSum Cert.KernelIdeal.Carried
open Idealize.ShloMosaic.Pipeline (Dat)
open scoped BigOperators

variable (m : (ℓ : Loc nD τ sig) → Buf (Elt Ideal) ℓ)

/-- The product of two [4096, 4096] matrices with a bias row added to every row. -/
def product (X W : S4096x4096.Idx → EReal) (b : S1x4096.Idx → EReal) : S4096x4096.Idx → EReal :=
  fun i => (∑ k : Fin 4096, X (ix2 (i 0) k) * W (ix2 k (i 1))) + b (ix2 (0 : Fin 1) (i 1))

/-- Entry (p, q) of the output block at a point with k = 3 is entry (512·i + p, 1024·j + q) of the product. -/
theorem block_entry (c : Dev nD) (t : Fin cfg0.N) (h3 : t.val % 4 = 3) (p : Fin 512) (q : Fin 1024) (i : S4096x4096.Idx)
    (hi0 : (i 0).val = 512 * (t.val / 16) + p.val) (hi1 : (i 1).val = 1024 * (t.val / 4 % 4) + q.val) :
    (outsAt0 m c t.val t.isLt).1 (ix2 p q) = product (leftMat m c) (weight m c) (biasRow m c) i := by
  rw [output_eq m c t h3 p q, ← hi0, ← hi1]
  obtain ⟨r, o, rfl⟩ : ∃ (r o : Fin 4096), i = ix2 r o := ⟨i 0, i 1, eq_ix2 i⟩
  show partialSum _ _ r.val o.val 4096 + entry (biasRow m c) (0 : Fin 1).val o.val = _
  rw [partialSum_all, entry_fin]
  rfl

/-- What a point with k = 3 writes back is its block of the product. -/
theorem flushed_eq (c : Dev nD) (t : Fin cfg0.N) (hf : (cfg0.win 3).flush t = true) :
    (dats m 0 c).flushed 3 t
      = ((cfg0.win 3).blk t).view.read (Elt Ideal) (product (leftMat m c) (weight m c) (biasRow m c)) := by
  have h3 : t.val % 4 = 3 := (flush0_3 t).mp hf
  obtain ⟨-, -, -, -, -, -, e6, e7⟩ := blockOf t
  show (cfg0.win 3).cut (grid0.coords t) ((dats m 0 c).after 3 t) = _
  rw [after0_3]
  funext y
  revert y
  show ∀ y : S512x1024.Idx, (outsAt0 m c t.val t.isLt).1 y
      = product (leftMat m c) (weight m c) (biasRow m c) (((cfg0.win 3).blk t).view.emb y)
  intro y
  obtain ⟨p, q, rfl⟩ : ∃ (p : Fin 512) (q : Fin 1024), y = ix2 p q := ⟨y 0, y 1, eq_ix2 y⟩
  refine block_entry m c t h3 p q _ ?_ ?_
  · show win0_3.index t (0 : Fin 2) * 512 + 1 * p.val = _
    omega
  · show win0_3.index t (1 : Fin 2) * 1024 + 1 * q.val = _
    omega

/-- An index of the output array is in point t's block iff each coordinate is in the block's range on its axis. -/
theorem mem_block (t : Fin cfg0.N) (i : S4096x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v59).slice (win0_3.rect t)).set ↔ _
  rw [View.set_slice_whole, Rect.mem_set_unit]
  exact Iff.rfl

/-- Every entry of the output array is in the block some point with k = 3 writes back. -/
theorem covered (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 128 := N_0
  let t : Fin cfg0.N := ⟨16 * ((i 0).val / 512) + 4 * ((i 1).val / 1024) + 3, by omega⟩
  have ht : t.val = 16 * ((i 0).val / 512) + 4 * ((i 1).val / 1024) + 3 := rfl
  obtain ⟨-, -, -, -, -, -, e6, e7⟩ := blockOf t
  refine ⟨t, (flush0_3 t).mpr (by omega), ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- THE OUTPUT ARRAY after the run is the product of the left matrix with the weight, plus the bias row. -/
theorem final (c : Dev nD) :
    (dats m 0 c).arrAt 3 cfg0.N = product (leftMat m c) (weight m c) (biasRow m c) :=
  (dats m 0 c).arrAt_eq_of_cover 3 (product (leftMat m c) (weight m c) (biasRow m c))
    (fun t hf => flushed_eq m c t hf) covered

end Cert.KernelIdeal.ProductArray

end
-- ==== Proof.OpsK.lean ====
/- The kernel program's 71 host operations before the kernel, as printed, in five consecutive lists: the scatter-add of the
   spectrum into a zero matrix (with the index rows made non-negative first), the inverse Haar step along the rows on the
   upper pair of quarters (with the four quarter slices), the same step on the lower pair, the step along the columns with the
   division by 5, and the four layout operations (transpose, add, two reshapes).  A table: no statement is made here. -/
import proofs.«123005_j58669253264028_1_alg».proof.Proof.Gen.KernelIdeal
import Idealize.ShloMosaic.Lib.StableHlo.Run

noncomputable section

namespace Cert.KernelIdeal.OpsK

open Cert.KernelIdeal Cert.KernelIdeal.Gen Idealize.ShloMosaic Idealize.ShloMosaic.TcCoe Idealize.SL.Sem

variable {F : FTy → Type} [FloatOps F]

abbrev scatterOps : List (HloOp τ sig (Elt F)) :=
  [
    StableHlo.nullary main_cst (constant S_ .f32 0x00000000#32),
    StableHlo.unary main_cst main_v0 (broadcastInDim S4096x4096 ![] bcast_S_S4096x4096 : (⟨S_, .f32⟩ : BufTy).Contents (Elt F) → (⟨S4096x4096, .f32⟩ : BufTy).Contents (Elt F)),
    StableHlo.unary main_arg4 main_v1 ((extractStridedSlice S1x2000 ![0, 0] · slices_S2x2000_S1x2000_0_0) : (⟨S2x2000, .i32⟩ : BufTy).Contents (Elt F) → (⟨S1x2000, .i32⟩ : BufTy).Contents (Elt F)),
    StableHlo.reshape main_v1 main_v2 rfl shapeCasts_S1x2000_S2000,
    StableHlo.unary main_arg4 main_v3 ((extractStridedSlice S1x2000 ![1, 0] · slices_S2x2000_S1x2000_1_0) : (⟨S2x2000, .i32⟩ : BufTy).Contents (Elt F) → (⟨S1x2000, .i32⟩ : BufTy).Contents (Elt F)),
    StableHlo.reshape main_v3 main_v4 rfl shapeCasts_S1x2000_S2000,
    StableHlo.nullary main_c (constantI S_ 32 0#32),
    StableHlo.unary main_c main_v5 (broadcastInDim S2000 ![] bcast_S_S2000 : (⟨S_, .i32⟩ : BufTy).Contents (Elt F) → (⟨S2000, .i32⟩ : BufTy).Contents (Elt F)),
    StableHlo.binary main_v2 main_v5 main_v6 (cmpi .slt : (⟨S2000, .i32⟩ : BufTy).Contents (Elt F) → (⟨S2000, .i32⟩ : BufTy).Contents (Elt F) → (⟨S2000, .i1⟩ : BufTy).Contents (Elt F)),
    StableHlo.nullary main_c_0 (constantI S_ 32 4096#32),
    StableHlo.unary main_c_0 main_v7 (broadcastInDim S2000 ![] bcast_S_S2000 : (⟨S_, .i32⟩ : BufTy).Contents (Elt F) → (⟨S2000, .i32⟩ : BufTy).Contents (Elt F)),
    StableHlo.binary main_v2 main_v7 main_v8 (addi : (⟨S2000, .i32⟩ : BufTy).Contents (Elt F) → (⟨S2000, .i32⟩ : BufTy).Contents (Elt F) → (⟨S2000, .i32⟩ : BufTy).Contents (Elt F)),
    StableHlo.ternary main_v6 main_v8 main_v2 main_v9 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.nullary main_c_1 (constantI S_ 32 0#32),
    StableHlo.unary main_c_1 main_v10 (broadcastInDim S2000 ![] bcast_S_S2000 : (⟨S_, .i32⟩ : BufTy).Contents (Elt F) → (⟨S2000, .i32⟩ : BufTy).Contents (Elt F)),
    StableHlo.binary main_v4 main_v10 main_v11 (cmpi .slt : (⟨S2000, .i32⟩ : BufTy).Contents (Elt F) → (⟨S2000, .i32⟩ : BufTy).Contents (Elt F) → (⟨S2000, .i1⟩ : BufTy).Contents (Elt F)),
    StableHlo.nullary main_c_2 (constantI S_ 32 4096#32),
    StableHlo.unary main_c_2 main_v12 (broadcastInDim S2000 ![] bcast_S_S2000 : (⟨S_, .i32⟩ : BufTy).Contents (Elt F) → (⟨S2000, .i32⟩ : BufTy).Contents (Elt F)),
    StableHlo.binary main_v4 main_v12 main_v13 (addi : (⟨S2000, .i32⟩ : BufTy).Contents (Elt F) → (⟨S2000, .i32⟩ : BufTy).Contents (Elt F) → (⟨S2000, .i32⟩ : BufTy).Contents (Elt F)),
    StableHlo.ternary main_v11 main_v13 main_v4 main_v14 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v9 main_v15 (broadcastInDim S2000x1 ![0] bcast_S2000_S2000x1_0 : (⟨S2000, .i32⟩ : BufTy).Contents (Elt F) → (⟨S2000x1, .i32⟩ : BufTy).Contents (Elt F)),
    StableHlo.unary main_v14 main_v16 (broadcastInDim S2000x1 ![0] bcast_S2000_S2000x1_0 : (⟨S2000, .i32⟩ : BufTy).Contents (Elt F) → (⟨S2000x1, .i32⟩ : BufTy).Contents (Elt F)),
    StableHlo.binary main_v15 main_v16 main_v17 ((fun a b => concatenate S2000x2 1 [⟨S2000x1, a⟩, ⟨S2000x1, b⟩] concatenates_S2000x1_S2000x1_S2000x2_d1) : (⟨S2000x1, .i32⟩ : BufTy).Contents (Elt F) → (⟨S2000x1, .i32⟩ : BufTy).Contents (Elt F) → (⟨S2000x2, .i32⟩ : BufTy).Contents (Elt F)),
    StableHlo.ternary main_v0 main_v17 main_arg3 main_v18 ((fun x i u => Host.scatterAdd scatter_S4096x4096_S2000x2_S2000_n_01_01_1 x i u) : (⟨S4096x4096, .f32⟩ : BufTy).Contents (Elt F) → (⟨S2000x2, .i32⟩ : BufTy).Contents (Elt F) → (⟨S2000, .f32⟩ : BufTy).Contents (Elt F) → (⟨S4096x4096, .f32⟩ : BufTy).Contents (Elt F)) ]

abbrev rowStepUp : List (HloOp τ sig (Elt F)) :=
  [
    StableHlo.unary main_v18 main_v19 ((extractStridedSlice S2048x2048 ![0, 0] · slices_S4096x4096_S2048x2048_0_0) : (⟨S4096x4096, .f32⟩ : BufTy).Contents (Elt F) → (⟨S2048x2048, .f32⟩ : BufTy).Contents (Elt F)),
    StableHlo.unary main_v18 main_v20 ((extractStridedSlice S2048x2048 ![0, 2048] · slices_S4096x4096_S2048x2048_0_2048) : (⟨S4096x4096, .f32⟩ : BufTy).Contents (Elt F) → (⟨S2048x2048, .f32⟩ : BufTy).Contents (Elt F)),
    StableHlo.unary main_v18 main_v21 ((extractStridedSlice S2048x2048 ![2048, 0] · slices_S4096x4096_S2048x2048_2048_0) : (⟨S4096x4096, .f32⟩ : BufTy).Contents (Elt F) → (⟨S2048x2048, .f32⟩ : BufTy).Contents (Elt F)),
    StableHlo.unary main_v18 main_v22 ((extractStridedSlice S2048x2048 ![2048, 2048] · slices_S4096x4096_S2048x2048_2048_2048) : (⟨S4096x4096, .f32⟩ : BufTy).Contents (Elt F) → (⟨S2048x2048, .f32⟩ : BufTy).Contents (Elt F)),
    StableHlo.binary main_v19 main_v20 main_v23 (addf : (⟨S2048x2048, .f32⟩ : BufTy).Contents (Elt F) → (⟨S2048x2048, .f32⟩ : BufTy).Contents (Elt F) → (⟨S2048x2048, .f32⟩ : BufTy).Contents (Elt F)),
    StableHlo.nullary main_cst_3 (constant S_ .f32 0x3F3504F3#32),
    StableHlo.unary main_cst_3 main_v24 (broadcastInDim S2048x2048 ![] bcast_S_S2048x2048 : (⟨S_, .f32⟩ : BufTy).Contents (Elt F) → (⟨S2048x2048, .f32⟩ : BufTy).Contents (Elt F)),
    StableHlo.binary main_v23 main_v24 main_v25 (mulf : (⟨S2048x2048, .f32⟩ : BufTy).Contents (Elt F) → (⟨S2048x2048, .f32⟩ : BufTy).Contents (Elt F) → (⟨S2048x2048, .f32⟩ : BufTy).Contents (Elt F)),
    StableHlo.binary main_v19 main_v20 main_v26 (subf : (⟨S2048x2048, .f32⟩ : BufTy).Contents (Elt F) → (⟨S2048x2048, .f32⟩ : BufTy).Contents (Elt F) → (⟨S2048x2048, .f32⟩ : BufTy).Contents (Elt F)),
    StableHlo.nullary main_cst_4 (constant S_ .f32 0x3F3504F3#32),
    StableHlo.unary main_cst_4 main_v27 (broadcastInDim S2048x2048 ![] bcast_S_S2048x2048 : (⟨S_, .f32⟩ : BufTy).Contents (Elt F) → (⟨S2048x2048, .f32⟩ : BufTy).Contents (Elt F)),
    StableHlo.binary main_v26 main_v27 main_v28 (mulf : (⟨S2048x2048, .f32⟩ : BufTy).Contents (Elt F) → (⟨S2048x2048, .f32⟩ : BufTy).Contents (Elt F) → (⟨S2048x2048, .f32⟩ : BufTy).Contents (Elt F)),
    StableHlo.unary main_v25 main_v29 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.unary main_v28 main_v30 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.binary main_v29 main_v30 main_v31 ((fun a b => concatenate S2048x2x2048 1 [⟨S2048x1x2048, a⟩, ⟨S2048x1x2048, b⟩] concatenates_S2048x1x2048_S2048x1x2048_S2048x2x2048_d1) : (⟨S2048x1x2048, .f32⟩ : BufTy).Contents (Elt F) → (⟨S2048x1x2048, .f32⟩ : BufTy).Contents (Elt F) → (⟨S2048x2x2048, .f32⟩ : BufTy).Contents (Elt F)),
    StableHlo.reshape main_v31 main_v32 rfl shapeCasts_S2048x2x2048_S4096x2048 ]

abbrev rowStepLow : List (HloOp τ sig (Elt F)) :=
  [
    StableHlo.binary main_v21 main_v22 main_v33 (addf : (⟨S2048x2048, .f32⟩ : BufTy).Contents (Elt F) → (⟨S2048x2048, .f32⟩ : BufTy).Contents (Elt F) → (⟨S2048x2048, .f32⟩ : BufTy).Contents (Elt F)),
    StableHlo.nullary main_cst_5 (constant S_ .f32 0x3F3504F3#32),
    StableHlo.unary main_cst_5 main_v34 (broadcastInDim S2048x2048 ![] bcast_S_S2048x2048 : (⟨S_, .f32⟩ : BufTy).Contents (Elt F) → (⟨S2048x2048, .f32⟩ : BufTy).Contents (Elt F)),
    StableHlo.binary main_v33 main_v34 main_v35 (mulf : (⟨S2048x2048, .f32⟩ : BufTy).Contents (Elt F) → (⟨S2048x2048, .f32⟩ : BufTy).Contents (Elt F) → (⟨S2048x2048, .f32⟩ : BufTy).Contents (Elt F)),
    StableHlo.binary main_v21 main_v22 main_v36 (subf : (⟨S2048x2048, .f32⟩ : BufTy).Contents (Elt F) → (⟨S2048x2048, .f32⟩ : BufTy).Contents (Elt F) → (⟨S2048x2048, .f32⟩ : BufTy).Contents (Elt F)),
    StableHlo.nullary main_cst_6 (constant S_ .f32 0x3F3504F3#32),
    StableHlo.unary main_cst_6 main_v37 (broadcastInDim S2048x2048 ![] bcast_S_S2048x2048 : (⟨S_, .f32⟩ : BufTy).Contents (Elt F) → (⟨S2048x2048, .f32⟩ : BufTy).Contents (Elt F)),
    StableHlo.binary main_v36 main_v37 main_v38 (mulf : (⟨S2048x2048, .f32⟩ : BufTy).Contents (Elt F) → (⟨S2048x2048, .f32⟩ : BufTy).Contents (Elt F) → (⟨S2048x2048, .f32⟩ : BufTy).Contents (Elt F)),
    StableHlo.unary main_v35 main_v39 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.unary main_v38 main_v40 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.binary main_v39 main_v40 main_v41 ((fun a b => concatenate S2048x2x2048 1 [⟨S2048x1x2048, a⟩, ⟨S2048x1x2048, b⟩] concatenates_S2048x1x2048_S2048x1x2048_S2048x2x2048_d1) : (⟨S2048x1x2048, .f32⟩ : BufTy).Contents (Elt F) → (⟨S2048x1x2048, .f32⟩ : BufTy).Contents (Elt F) → (⟨S2048x2x2048, .f32⟩ : BufTy).Contents (Elt F)),
    StableHlo.reshape main_v41 main_v42 rfl shapeCasts_S2048x2x2048_S4096x2048 ]

abbrev colStep : List (HloOp τ sig (Elt F)) :=
  [
    StableHlo.binary main_v32 main_v42 main_v43 (addf : (⟨S4096x2048, .f32⟩ : BufTy).Contents (Elt F) → (⟨S4096x2048, .f32⟩ : BufTy).Contents (Elt F) → (⟨S4096x2048, .f32⟩ : BufTy).Contents (Elt F)),
    StableHlo.nullary main_cst_7 (constant S_ .f32 0x3F3504F3#32),
    StableHlo.unary main_cst_7 main_v44 (broadcastInDim S4096x2048 ![] bcast_S_S4096x2048 : (⟨S_, .f32⟩ : BufTy).Contents (Elt F) → (⟨S4096x2048, .f32⟩ : BufTy).Contents (Elt F)),
    StableHlo.binary main_v43 main_v44 main_v45 (mulf : (⟨S4096x2048, .f32⟩ : BufTy).Contents (Elt F) → (⟨S4096x2048, .f32⟩ : BufTy).Contents (Elt F) → (⟨S4096x2048, .f32⟩ : BufTy).Contents (Elt F)),
    StableHlo.binary main_v32 main_v42 main_v46 (subf : (⟨S4096x2048, .f32⟩ : BufTy).Contents (Elt F) → (⟨S4096x2048, .f32⟩ : BufTy).Contents (Elt F) → (⟨S4096x2048, .f32⟩ : BufTy).Contents (Elt F)),
    StableHlo.nullary main_cst_8 (constant S_ .f32 0x3F3504F3#32),
    StableHlo.unary main_cst_8 main_v47 (broadcastInDim S4096x2048 ![] bcast_S_S4096x2048 : (⟨S_, .f32⟩ : BufTy).Contents (Elt F) → (⟨S4096x2048, .f32⟩ : BufTy).Contents (Elt F)),
    StableHlo.binary main_v46 main_v47 main_v48 (mulf : (⟨S4096x2048, .f32⟩ : BufTy).Contents (Elt F) → (⟨S4096x2048, .f32⟩ : BufTy).Contents (Elt F) → (⟨S4096x2048, .f32⟩ : BufTy).Contents (Elt F)),
    StableHlo.unary main_v45 main_v49 (broadcastInDim S4096x2048x1 ![0, 1] bcast_S4096x2048_S4096x2048x1_0_1 : (⟨S4096x2048, .f32⟩ : BufTy).Contents (Elt F) → (⟨S4096x2048x1, .f32⟩ : BufTy).Contents (Elt F)),
    StableHlo.unary main_v48 main_v50 (broadcastInDim S4096x2048x1 ![0, 1] bcast_S4096x2048_S4096x2048x1_0_1 : (⟨S4096x2048, .f32⟩ : BufTy).Contents (Elt F) → (⟨S4096x2048x1, .f32⟩ : BufTy).Contents (Elt F)),
    StableHlo.binary main_v49 main_v50 main_v51 ((fun a b => concatenate S4096x2048x2 2 [⟨S4096x2048x1, a⟩, ⟨S4096x2048x1, b⟩] concatenates_S4096x2048x1_S4096x2048x1_S4096x2048x2_d2) : (⟨S4096x2048x1, .f32⟩ : BufTy).Contents (Elt F) → (⟨S4096x2048x1, .f32⟩ : BufTy).Contents (Elt F) → (⟨S4096x2048x2, .f32⟩ : BufTy).Contents (Elt F)),
    StableHlo.reshape main_v51 main_v52 rfl shapeCasts_S4096x2048x2_S4096x4096,
    StableHlo.nullary main_cst_9 (constant S_ .f32 0x40A00000#32),
    StableHlo.unary main_cst_9 main_v53 (broadcastInDim S4096x4096 ![] bcast_S_S4096x4096 : (⟨S_, .f32⟩ : BufTy).Contents (Elt F) → (⟨S4096x4096, .f32⟩ : BufTy).Contents (Elt F)),
    StableHlo.binary main_v52 main_v53 main_v54 (Host.divf : (⟨S4096x4096, .f32⟩ : BufTy).Contents (Elt F) → (⟨S4096x4096, .f32⟩ : BufTy).Contents (Elt F) → (⟨S4096x4096, .f32⟩ : BufTy).Contents (Elt F)) ]

abbrev layoutOps : List (HloOp τ sig (Elt F)) :=
  [
    StableHlo.unary main_arg1 main_v55 ((transpose S4096x4096 [1, 0] · transposes_S4096x4096_S4096x4096_1_0) : (⟨S4096x4096, .f32⟩ : BufTy).Contents (Elt F) → (⟨S4096x4096, .f32⟩ : BufTy).Contents (Elt F)),
    StableHlo.binary main_v55 main_v54 main_v56 (addf : (⟨S4096x4096, .f32⟩ : BufTy).Contents (Elt F) → (⟨S4096x4096, .f32⟩ : BufTy).Contents (Elt F) → (⟨S4096x4096, .f32⟩ : BufTy).Contents (Elt F)),
    StableHlo.reshape main_arg0 main_v57 rfl shapeCasts_S4x1024x4096_S4096x4096,
    StableHlo.reshape main_arg2 main_v58 rfl shapeCasts_S4096_S1x4096 ]

end Cert.KernelIdeal.OpsK

end
-- ==== Proof.FoldK.lean ====
/-
  The kernel program's host operations before the kernel, cut where the computation cuts them.

  The 71 operations are, in order:
    * `scatterOps`  — a zero [4096, 4096] matrix, the two index rows made non-negative (a negative index has 4096 added),
                      paired up, and the spectrum scatter-added into the matrix at those pairs;
    * `rowStepUp`   — the matrix's four [2048, 2048] quarters, and one inverse Haar step along the rows on the upper pair;
    * `rowStepLow`  — the same step on the lower pair;
    * `colStep`     — the inverse Haar step along the columns on the two results, and the division by 5: this is `delta_w`;
    * `layoutOps`   — `transpose(base_weight) + delta_w`, and the left argument and the bias re-laid as matrices.
  (The five lists themselves are the table module this one imports.)  The first four together (`chainOps`) depend on the spectrum and the index pairs only, and are the same operations the
  reference performs; they are kept as one unopened valuation `before`.  Only the last four are read here.
-/
import proofs.«123005_j58669253264028_1_alg».proof.Proof.Gen.KernelIdeal.Frame
import proofs.«123005_j58669253264028_1_alg».proof.Proof.OpsK
import Idealize.ShloMosaic.Lib.StableHlo.Run

noncomputable section

namespace Cert.KernelIdeal.FoldK

open Cert.KernelIdeal Cert.KernelIdeal.Gen Idealize.ShloMosaic Idealize.ShloMosaic.TcCoe Idealize.SL.Sem
open Idealize.ShloMosaic.StableHlo Cert.KernelIdeal.OpsK

variable {F : FTy → Type} [FloatOps F]

/-- Everything that computes `delta_w`. -/
abbrev chainOps : List (HloOp τ sig (Elt F)) := scatterOps ++ rowStepUp ++ rowStepLow ++ colStep

set_option maxRecDepth 8192 in
/-- The printed list is these five pieces in order. -/
theorem hostOps0_split : (hostOps0 : List (HloOp τ sig (Elt F))) = chainOps ++ layoutOps := rfl

/-! ## The last four operations, over any contents `W` -/

theorem layout_weight (W : Valuation τ sig (Elt F)) :
    (after layoutOps W (Proc.devRef .tc main_v56) : S4096x4096.Idx → Elt F .f32)
      = addf (transpose S4096x4096 [1, 0] (W (Proc.devRef .tc main_arg1)) Facts₀.transposes_S4096x4096_S4096x4096_1_0)
          (W (Proc.devRef .tc main_v54)) := by
  after_results
  try rfl

theorem layout_left (W : Valuation τ sig (Elt F)) :
    (after layoutOps W (Proc.devRef .tc main_v57) : S4096x4096.Idx → Elt F .f32)
      = shapeCast S4096x4096 (W (Proc.devRef .tc main_arg0)) Facts₀.shapeCasts_S4x1024x4096_S4096x4096 := by
  after_results
  try rfl

theorem layout_bias (W : Valuation τ sig (Elt F)) :
    (after layoutOps W (Proc.devRef .tc main_v58) : S1x4096.Idx → Elt F .f32)
      = shapeCast S1x4096 (W (Proc.devRef .tc main_arg2)) Facts₀.shapeCasts_S4096_S1x4096 := by
  after_results
  try rfl

/-- They leave `delta_w` and the arguments as they were. -/
theorem layout_keeps_dw (W : Valuation τ sig (Elt F)) :
    after layoutOps W (Proc.devRef .tc main_v54) = W (Proc.devRef .tc main_v54) := by
  after_results
  try rfl
theorem layout_keeps_arg0 (W : Valuation τ sig (Elt F)) :
    after layoutOps W (Proc.devRef .tc main_arg0) = W (Proc.devRef .tc main_arg0) := by
  after_results
  try rfl
theorem layout_keeps_arg1 (W : Valuation τ sig (Elt F)) :
    after layoutOps W (Proc.devRef .tc main_arg1) = W (Proc.devRef .tc main_arg1) := by
  after_results
  try rfl
theorem layout_keeps_arg2 (W : Valuation τ sig (Elt F)) :
    after layoutOps W (Proc.devRef .tc main_arg2) = W (Proc.devRef .tc main_arg2) := by
  after_results
  try rfl

/-! ## The arrays the kernel finds -/

variable (m : (ℓ : Loc nD τ sig) → Buf (Elt F) ℓ)

/-- The contents once `delta_w` is computed, before the layout operations. -/
abbrev before (c : Dev nD) : Valuation τ sig (Elt F) := after chainOps (fun b => m (c, b))

set_option maxRecDepth 8192 in
/-- What the kernel finds is the layout operations' result over `before`. -/
theorem V_eq (c : Dev nD) (b : Ref sig .tc) : V m c b = after layoutOps (before m c) (Proc.devRef .tc b) := by
  show after (List.flatten [hostOps0]) (fun b => m (c, b)) (Proc.devRef .tc b) = _
  rw [show (List.flatten [hostOps0] : List (HloOp τ sig (Elt F))) = chainOps ++ layoutOps from rfl, after_append]

/-- `delta_w`, as the kernel program computes it: the contents of its buffer when the kernel is entered. -/
abbrev deltaW (c : Dev nD) : S4096x4096.Idx → Elt F .f32 := V m c main_v54

theorem deltaW_eq (c : Dev nD) : deltaW m c = before m c (Proc.devRef .tc main_v54) := by
  show V m c main_v54 = _
  rw [V_eq, layout_keeps_dw]

/-- The combined weight is the transposed first weight matrix plus `delta_w`. -/
theorem weight_eq (c : Dev nD) : (V m c main_v56 : S4096x4096.Idx → Elt F .f32)
    = addf (transpose S4096x4096 [1, 0] (m ((c : Thread nD τ).loc main_arg1)) Facts₀.transposes_S4096x4096_S4096x4096_1_0)
        (deltaW m c) := by
  have h1 := V_main_arg1 m c
  rw [V_eq, layout_keeps_arg1] at h1
  show V m c main_v56 = addf _ (V m c main_v54)
  rw [V_eq m c main_v56, V_eq m c main_v54, layout_weight, layout_keeps_dw, h1]

/-- The left matrix is the left argument, re-laid as [4096, 4096]. -/
theorem leftMat_eq (c : Dev nD) : (V m c main_v57 : S4096x4096.Idx → Elt F .f32)
    = shapeCast S4096x4096 (m ((c : Thread nD τ).loc main_arg0)) Facts₀.shapeCasts_S4x1024x4096_S4096x4096 := by
  have h0 := V_main_arg0 m c
  rw [V_eq, layout_keeps_arg0] at h0
  rw [V_eq m c main_v57, layout_left, h0]

/-- The bias row is the bias argument, re-laid as [1, 4096]. -/
theorem biasRow_eq (c : Dev nD) : (V m c main_v58 : S1x4096.Idx → Elt F .f32)
    = shapeCast S1x4096 (m ((c : Thread nD τ).loc main_arg2)) Facts₀.shapeCasts_S4096_S1x4096 := by
  have h2 := V_main_arg2 m c
  rw [V_eq, layout_keeps_arg2] at h2
  rw [V_eq m c main_v58, layout_bias, h2]

end Cert.KernelIdeal.FoldK

end
-- ==== Proof.LibMergeRows.lean ====
/-
  A reshape that merges the two leading axes of a three-axis array into one, or splits them again, read at coordinates.

  Row-major order puts entry (p, q, k) of an [a, b, c] array at position (p·b + q)·c + k, and entry (r, k) of an [n, c]
  array at r·c + k; a reshape keeps positions.  So with r = p·b + q the two arrays hold the same value at (p, q, k) and
  (r, k), in either direction.  The row count n is a parameter of its own (with n = a·b implied by the reshape being
  legal), so that the lemmas apply to shapes written with literal sizes.
-/
import Idealize.ShloMosaic.Lib.Pipeline.Value
import Idealize.ShloMosaic.Lib.ValueIdx

namespace Cert.LibMergeRows

open Idealize.ShloMosaic Idealize.ShloMosaic.ValueIdx

variable {α : Type}

/-- An [a, b, c] array reshaped to [n, c] reads, at (r, k) with r = p·b + q, the operand at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- An [n, c] array reshaped to [a, b, c] reads, at (p, q, k), the operand at (r, k) with r = p·b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.LibMergeRows
-- ==== Proof.SplitLaw.lean ====
/-
  The one algebraic law that joins the two programs, on the extended reals.

  The kernel multiplies `x` by the SUM of two weight matrices and contracts once; the reference contracts `x`
  with each matrix separately and adds the results.  Entry by entry the first is `∑ₖ xₖ · (aₖ + dₖ) + β` and the
  second `(∑ₖ xₖ · aₖ + β) + ∑ₖ xₖ · dₖ`.  Over the reals this is distributivity.  Over the extended reals
  distributivity `x · (a + d) = x · a + x · d` can fail (for `x < 0`, `a = +∞`, `d = -∞`), but it holds as soon as
  `x` and `a` are real, whatever `d` is: then `a + d` is `d` when `d` is infinite, and `x · a` is a real
  number, which an infinite `x · d` absorbs.  Moving `β` across and splitting the sum of sums use only that
  addition of extended reals is commutative and associative.
-/
import Mathlib.Data.EReal.Operations
import Mathlib.Algebra.BigOperators.Group.Finset.Basic

namespace Cert.SplitLaw

open scoped BigOperators

/-- A real times (a real plus any extended real) distributes. -/
theorem coe_mul_coe_add (x a : ℝ) (d : EReal) :
    (x : EReal) * ((a : EReal) + d) = (x : EReal) * (a : EReal) + (x : EReal) * d := by
  induction d using EReal.rec with
  | bot =>
    rw [EReal.add_bot]
    rcases lt_trichotomy x 0 with hx | rfl | hx
    · rw [EReal.coe_mul_bot_of_neg hx, ← EReal.coe_mul, EReal.coe_add_top]
    · simp
    · rw [EReal.coe_mul_bot_of_pos hx, EReal.add_bot]
  | coe d =>
    rw [← EReal.coe_add, ← EReal.coe_mul, ← EReal.coe_mul, ← EReal.coe_mul, ← EReal.coe_add, mul_add]
  | top =>
    rw [EReal.coe_add_top]
    rcases lt_trichotomy x 0 with hx | rfl | hx
    · rw [EReal.coe_mul_top_of_neg hx, EReal.add_bot]
    · simp
    · rw [EReal.coe_mul_top_of_pos hx, ← EReal.coe_mul, EReal.coe_add_top]

/-- The same for extended reals known to be real. -/
theorem mul_add_of_real {x a : EReal} (hx : ∃ r : ℝ, x = r) (ha : ∃ r : ℝ, a = r) (d : EReal) :
    x * (a + d) = x * a + x * d := by
  obtain ⟨x, rfl⟩ := hx
  obtain ⟨a, rfl⟩ := ha
  exact coe_mul_coe_add x a d

/-- THE LAW.  One contraction against the sum of two matrices, plus a bias, is the contraction against the first
    plus the bias, plus the contraction against the second — when the left factor and the first matrix are real. -/
theorem sum_mul_add_add {K : Type*} [Fintype K] (x a d : K → EReal) (β : EReal)
    (hx : ∀ k, ∃ r : ℝ, x k = r) (ha : ∀ k, ∃ r : ℝ, a k = r) :
    (∑ k, x k * (a k + d k)) + β = ((∑ k, x k * a k) + β) + ∑ k, x k * d k := by
  have e : ∀ k, x k * (a k + d k) = x k * a k + x k * d k := fun k => mul_add_of_real (hx k) (ha k) (d k)
  simp only [e]
  rw [Finset.sum_add_distrib, add_right_comm]

end Cert.SplitLaw
-- ==== Proof.Spec.lean ====
/-
  The result of both programs, entry by entry, and why the two forms agree.

  `x` : [4, 1024, 4096] is the left argument, `bw` : [4096, 4096] the first weight matrix (used transposed), `bias` :
  [4096], and `dw` : [4096, 4096] a second weight matrix both programs compute in the same way.  At (b, s, o)
    * the kernel contracts `x[b, s, :]` once, with column o of the SUM of the two weight matrices, and adds the bias:
        `combined  = ∑ₖ x(b,s,k) · (bw(o,k) + dw(k,o)) + bias(o)`;
    * the reference contracts with each matrix separately and adds the bias in between:
        `separate  = (∑ₖ x(b,s,k) · bw(o,k) + bias(o)) + ∑ₖ x(b,s,k) · dw(k,o)`.
  They agree when `x` and `bw` hold real numbers, whatever `dw` and `bias` hold (the law of the module it imports).
-/
import proofs.«123005_j58669253264028_1_alg».proof.Proof.SplitLaw
import Idealize.ShloMosaic.Lib.ValueIdx

noncomputable section

namespace Cert.Spec

open Idealize.ShloMosaic Idealize.ShloMosaic.ValueIdx
open scoped BigOperators

abbrev Arr3 := (⟨3, ![4, 1024, 4096]⟩ : Shape).Idx → EReal
abbrev Mat := (⟨2, ![4096, 4096]⟩ : Shape).Idx → EReal
abbrev Vec1 := (⟨1, ![4096]⟩ : Shape).Idx → EReal

/-- One contraction with the sum of the two weight matrices, then the bias. -/
def combined (x : Arr3) (bw : Mat) (bias : Vec1) (dw : Mat) : Arr3 := fun i =>
  (∑ k : Fin 4096, x (ix3 (i 0) (i 1) k) * (bw (ix2 (i 2) k) + dw (ix2 k (i 2)))) + bias (ix1 (i 2))

/-- A contraction with the first matrix, the bias, then a contraction with the second matrix. -/
def separate (x : Arr3) (bw : Mat) (bias : Vec1) (dw : Mat) : Arr3 := fun i =>
  ((∑ k : Fin 4096, x (ix3 (i 0) (i 1) k) * bw (ix2 (i 2) k)) + bias (ix1 (i 2)))
    + ∑ k : Fin 4096, x (ix3 (i 0) (i 1) k) * dw (ix2 k (i 2))

/-- The two forms are one array when the left argument and the first weight matrix are real. -/
theorem combined_eq_separate (x : Arr3) (bw : Mat) (bias : Vec1) (dw : Mat)
    (hx : ∀ i, ∃ r : ℝ, x i = r) (hbw : ∀ i, ∃ r : ℝ, bw i = r) :
    combined x bw bias dw = separate x bw bias dw :=
  funext fun i => Cert.SplitLaw.sum_mul_add_add
    (fun k : Fin 4096 => x (ix3 (i 0) (i 1) k)) (fun k => bw (ix2 (i 2) k)) (fun k => dw (ix2 k (i 2))) (bias (ix1 (i 2)))
    (fun k => hx _) (fun k => hbw _)

end Cert.Spec

end
-- ==== Proof.KernelResult.lean ====
/-
  The kernel program's result, in terms of its arguments: the `combined` form.

  After the kernel the program only re-lays the [4096, 4096] output array as [4, 1024, 4096]: entry (b, s, o) of the
  result is entry (1024·b + s, o) of the product.  The product's operands were laid out before the kernel (the left
  argument with rows 1024·b + s, the weight `transpose(bw) + dw`, the bias as one row), so entry (b, s, o) is
      `∑ₖ x(b,s,k) · (bw(o,k) + dw(k,o)) + bias(o)`.
  The run itself — termination, no fault, every array as stated, the arguments unchanged — is the generated one; this
  module reads its result buffer.
-/
import proofs.«123005_j58669253264028_1_alg».proof.Proof.ProductArray
import proofs.«123005_j58669253264028_1_alg».proof.Proof.FoldK
import proofs.«123005_j58669253264028_1_alg».proof.Proof.LibMergeRows
import proofs.«123005_j58669253264028_1_alg».proof.Proof.Spec
import Idealize.ShloMosaic.Lib.ValueLayout

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Cert.KernelIdeal.Carried Cert.KernelIdeal.ProductArray Cert.KernelIdeal.FoldK Cert.LibMergeRows
open scoped BigOperators

variable (m : (ℓ : Loc nD τ sig) → Buf (Elt Ideal) ℓ) (ρ : Dev nD → PrngReg)

/-- The array both forms are stated over: the `combined` form of this program's arguments. -/
abbrev answer (c : Dev nD) : S4x1024x4096.Idx → EReal :=
  Cert.Spec.combined (m ((c : Thread nD τ).loc main_arg0)) (m ((c : Thread nD τ).loc main_arg1)) (m ((c : Thread nD τ).loc main_arg2)) (deltaW m c)

/-- The arithmetic, over any arrays: the product of (`x` re-laid as a matrix) with (`bw` transposed, plus `dw`), plus the bias
    row, read at (1024·b + s, o), is the `combined` form at (b, s, o). -/
theorem product_of_layout (x : FVec Ideal S4x1024x4096 .f32) (bw dw : FVec Ideal S4096x4096 .f32) (bias : FVec Ideal S4096 .f32)
    (h1 : S4x1024x4096.ShapeCasts S4096x4096) (h2 : S4096x4096.Transposes [1, 0] S4096x4096) (h3 : S4096.ShapeCasts S1x4096)
    (b : Fin 4) (s : Fin 1024) (o : Fin 4096) (r : Fin 4096) (hr : r.val = b.val * 1024 + s.val) :
    product (shapeCast S4096x4096 x h1) (addf (transpose S4096x4096 [1, 0] bw h2) dw) (shapeCast S1x4096 bias h3) (ix2 r o)
      = Cert.Spec.combined x bw bias dw (ix3 b s o) := by
  show (∑ k : Fin 4096, shapeCast S4096x4096 x h1 (ix2 r k) * addf (transpose S4096x4096 [1, 0] bw h2) dw (ix2 k o))
      + shapeCast S1x4096 bias h3 (ix2 (0 : Fin 1) o)
    = (∑ k : Fin 4096, x (ix3 b s k) * (bw (ix2 o k) + dw (ix2 k o))) + bias (ix1 o)
  rw [shapeCast_a_1a_apply]
  refine congrArg (· + _) (Finset.sum_congr rfl fun k _ => ?_)
  rw [shapeCast_abc_nc_apply _ _ b s k r hr, addf_apply, transpose_ix2_apply]

/-- Entry (1024·b + s, o) of the kernel's product is entry (b, s, o) of the `combined` form of the arguments. -/
theorem product_apply (c : Dev nD) (b : Fin 4) (s : Fin 1024) (o : Fin 4096) (r : Fin 4096) (hr : r.val = b.val * 1024 + s.val) :
    product (leftMat m c) (weight m c) (biasRow m c) (ix2 r o) = answer m c (ix3 b s o) := by
  have h := product_of_layout (m ((c : Thread nD τ).loc main_arg0)) (m ((c : Thread nD τ).loc main_arg1)) (deltaW m c) (m ((c : Thread nD τ).loc main_arg2))
    Facts₀.shapeCasts_S4x1024x4096_S4096x4096 Facts₀.transposes_S4096x4096_S4096x4096_1_0 Facts₀.shapeCasts_S4096_S1x4096 b s o r hr
  rw [← leftMat_eq m c, ← weight_eq m c, ← biasRow_eq m c] at h
  exact h

/-- The product re-laid as [4, 1024, 4096] is the `combined` form. -/
theorem relaid_eq (c : Dev nD) :
    shapeCast S4x1024x4096 (product (leftMat m c) (weight m c) (biasRow m c)) Facts₀.shapeCasts_S4096x4096_S4x1024x4096
      = answer m c := by
  funext i
  obtain ⟨b, s, o, rfl⟩ : ∃ (b : Fin 4) (s : Fin 1024) (o : Fin 4096), i = ix3 b s o := ⟨i 0, i 1, i 2, eq_ix3 i⟩
  have hr : b.val * 1024 + s.val < 4096 := by have := b.isLt; have := s.isLt; omega
  rw [shapeCast_nc_abc_apply _ _ b s o ⟨b.val * 1024 + s.val, hr⟩ rfl]
  exact product_apply m c b s o _ rfl

/-- What the program leaves in its result buffer: the operation after the kernel applied to the kernel's output array. -/
theorem tail_eq (c : Dev nD) :
    Pipeline.afterTail₀ cfgs (dats m) 0 (V0 m) [hostOps1] c main_v60
      = shapeCast S4x1024x4096 (product (leftMat m c) (weight m c) (biasRow m c)) Facts₀.shapeCasts_S4096x4096_S4x1024x4096 := by
  unfold Pipeline.afterTail₀
  show StableHlo.after hostOps1 _ (Proc.devRef .tc main_v60) = _
  after_results
  have e : Pipeline.withArrays (cfgs 0).spec c (V0 m c) (fun w => (dats m 0 c).arrAt w (cfgs 0).N) (Proc.devRef .tc main_v59)
      = product (leftMat m c) (weight m c) (biasRow m c) :=
    (Pipeline.withArrays_arr spec0 launch0.win.arr_inj c _ _ 3).trans (ProductArray.final m c)
  rw [e]
  rfl

/-- THE KERNEL PROGRAM'S RUN, read: every weakly fair execution terminates without a fault, with the result buffer at the
    `combined` form of the arguments and the arguments unchanged. -/
theorem run : θ_run defs (onTc (τ := τ) (main (F := Ideal))) ⟨m, fun _ => 0, ρ⟩ (fun r => ∀ c : Dev nD,
      r.2.mem ((c.tc : Thread nD τ).loc main_v60) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v60 (Pipeline.mem_restRefs_of main_v60 (by decide) (by decide))).trans ((tail_eq m c).trans (relaid_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.OpsR.lean ====
/- The reference program's 73 host operations, as printed: the whole list, and the same list in six consecutive pieces (the
   first contraction with the bias; the scatter-add; the two inverse Haar steps along the rows; the step along the columns
   with the division by 5; the second contraction and the final sum), and, operation by operation, that each touches
   TensorCore buffers only (the builder's own lemma).  A table: nothing else is stated here. -/
import proofs.«123005_j58669253264028_1_alg».proof.ReferenceIdeal
import proofs.«123005_j58669253264028_1_alg».proof.Proof.Gen.ReferenceIdeal
import Idealize.ShloMosaic.Lib.StableHlo.Run

noncomputable section

namespace Cert.ReferenceIdeal.OpsR

open Cert.ReferenceIdeal Cert.ReferenceIdeal.Gen Idealize.ShloMosaic Idealize.ShloMosaic.TcCoe Idealize.SL.Sem
open Idealize.ShloMosaic.StableHlo

variable {F : FTy → Type} [FloatOps F]

abbrev baseOps : List (HloOp τ sig (Elt F)) :=
  [
    StableHlo.binary main_arg0 main_arg1 main_v0 ((fun l r => Host.dotGeneral dot_S4x1024x4096_S4096x4096_S4x1024x4096_2_1_01_0_n_n none l r) : (⟨S4x1024x4096, .f32⟩ : BufTy).Contents (Elt F) → (⟨S4096x4096, .f32⟩ : BufTy).Contents (Elt F) → (⟨S4x1024x4096, .f32⟩ : BufTy).Contents (Elt F)),
    StableHlo.unary main_arg2 main_v1 (broadcastInDim S1x1x4096 ![2] bcast_S4096_S1x1x4096_2 : (⟨S4096, .f32⟩ : BufTy).Contents (Elt F) → (⟨S1x1x4096, .f32⟩ : BufTy).Contents (Elt F)),
    StableHlo.unary main_v1 main_v2 (broadcastInDim S4x1024x4096 ![0, 1, 2] bcast_S1x1x4096_S4x1024x4096_0_1_2 : (⟨S1x1x4096, .f32⟩ : BufTy).Contents (Elt F) → (⟨S4x1024x4096, .f32⟩ : BufTy).Contents (Elt F)),
    StableHlo.binary main_v0 main_v2 main_v3 (addf : (⟨S4x1024x4096, .f32⟩ : BufTy).Contents (Elt F) → (⟨S4x1024x4096, .f32⟩ : BufTy).Contents (Elt F) → (⟨S4x1024x4096, .f32⟩ : BufTy).Contents (Elt F)) ]

abbrev scatterOps : List (HloOp τ sig (Elt F)) :=
  [
    StableHlo.nullary main_cst (constant S_ .f32 0x00000000#32),
    StableHlo.unary main_cst main_v4 (broadcastInDim S4096x4096 ![] bcast_S_S4096x4096 : (⟨S_, .f32⟩ : BufTy).Contents (Elt F) → (⟨S4096x4096, .f32⟩ : BufTy).Contents (Elt F)),
    StableHlo.unary main_arg4 main_v5 ((extractStridedSlice S1x2000 ![0, 0] · slices_S2x2000_S1x2000_0_0) : (⟨S2x2000, .i32⟩ : BufTy).Contents (Elt F) → (⟨S1x2000, .i32⟩ : BufTy).Contents (Elt F)),
    StableHlo.reshape main_v5 main_v6 rfl shapeCasts_S1x2000_S2000,
    StableHlo.unary main_arg4 main_v7 ((extractStridedSlice S1x2000 ![1, 0] · slices_S2x2000_S1x2000_1_0) : (⟨S2x2000, .i32⟩ : BufTy).Contents (Elt F) → (⟨S1x2000, .i32⟩ : BufTy).Contents (Elt F)),
    StableHlo.reshape main_v7 main_v8 rfl shapeCasts_S1x2000_S2000,
    StableHlo.nullary main_c (constantI S_ 32 0#32),
    StableHlo.unary main_c main_v9 (broadcastInDim S2000 ![] bcast_S_S2000 : (⟨S_, .i32⟩ : BufTy).Contents (Elt F) → (⟨S2000, .i32⟩ : BufTy).Contents (Elt F)),
    StableHlo.binary main_v6 main_v9 main_v10 (cmpi .slt : (⟨S2000, .i32⟩ : BufTy).Contents (Elt F) → (⟨S2000, .i32⟩ : BufTy).Contents (Elt F) → (⟨S2000, .i1⟩ : BufTy).Contents (Elt F)),
    StableHlo.nullary main_c_0 (constantI S_ 32 4096#32),
    StableHlo.unary main_c_0 main_v11 (broadcastInDim S2000 ![] bcast_S_S2000 : (⟨S_, .i32⟩ : BufTy).Contents (Elt F) → (⟨S2000, .i32⟩ : BufTy).Contents (Elt F)),
    StableHlo.binary main_v6 main_v11 main_v12 (addi : (⟨S2000, .i32⟩ : BufTy).Contents (Elt F) → (⟨S2000, .i32⟩ : BufTy).Contents (Elt F) → (⟨S2000, .i32⟩ : BufTy).Contents (Elt F)),
    StableHlo.ternary main_v10 main_v12 main_v6 main_v13 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.nullary main_c_1 (constantI S_ 32 0#32),
    StableHlo.unary main_c_1 main_v14 (broadcastInDim S2000 ![] bcast_S_S2000 : (⟨S_, .i32⟩ : BufTy).Contents (Elt F) → (⟨S2000, .i32⟩ : BufTy).Contents (Elt F)),
    StableHlo.binary main_v8 main_v14 main_v15 (cmpi .slt : (⟨S2000, .i32⟩ : BufTy).Contents (Elt F) → (⟨S2000, .i32⟩ : BufTy).Contents (Elt F) → (⟨S2000, .i1⟩ : BufTy).Contents (Elt F)),
    StableHlo.nullary main_c_2 (constantI S_ 32 4096#32),
    StableHlo.unary main_c_2 main_v16 (broadcastInDim S2000 ![] bcast_S_S2000 : (⟨S_, .i32⟩ : BufTy).Contents (Elt F) → (⟨S2000, .i32⟩ : BufTy).Contents (Elt F)),
    StableHlo.binary main_v8 main_v16 main_v17 (addi : (⟨S2000, .i32⟩ : BufTy).Contents (Elt F) → (⟨S2000, .i32⟩ : BufTy).Contents (Elt F) → (⟨S2000, .i32⟩ : BufTy).Contents (Elt F)),
    StableHlo.ternary main_v15 main_v17 main_v8 main_v18 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v13 main_v19 (broadcastInDim S2000x1 ![0] bcast_S2000_S2000x1_0 : (⟨S2000, .i32⟩ : BufTy).Contents (Elt F) → (⟨S2000x1, .i32⟩ : BufTy).Contents (Elt F)),
    StableHlo.unary main_v18 main_v20 (broadcastInDim S2000x1 ![0] bcast_S2000_S2000x1_0 : (⟨S2000, .i32⟩ : BufTy).Contents (Elt F) → (⟨S2000x1, .i32⟩ : BufTy).Contents (Elt F)),
    StableHlo.binary main_v19 main_v20 main_v21 ((fun a b => concatenate S2000x2 1 [⟨S2000x1, a⟩, ⟨S2000x1, b⟩] concatenates_S2000x1_S2000x1_S2000x2_d1) : (⟨S2000x1, .i32⟩ : BufTy).Contents (Elt F) → (⟨S2000x1, .i32⟩ : BufTy).Contents (Elt F) → (⟨S2000x2, .i32⟩ : BufTy).Contents (Elt F)),
    StableHlo.ternary main_v4 main_v21 main_arg3 main_v22 ((fun x i u => Host.scatterAdd scatter_S4096x4096_S2000x2_S2000_n_01_01_1 x i u) : (⟨S4096x4096, .f32⟩ : BufTy).Contents (Elt F) → (⟨S2000x2, .i32⟩ : BufTy).Contents (Elt F) → (⟨S2000, .f32⟩ : BufTy).Contents (Elt F) → (⟨S4096x4096, .f32⟩ : BufTy).Contents (Elt F)) ]

abbrev rowStepUp : List (HloOp τ sig (Elt F)) :=
  [
    StableHlo.unary main_v22 main_v23 ((extractStridedSlice S2048x2048 ![0, 0] · slices_S4096x4096_S2048x2048_0_0) : (⟨S4096x4096, .f32⟩ : BufTy).Contents (Elt F) → (⟨S2048x2048, .f32⟩ : BufTy).Contents (Elt F)),
    StableHlo.unary main_v22 main_v24 ((extractStridedSlice S2048x2048 ![0, 2048] · slices_S4096x4096_S2048x2048_0_2048) : (⟨S4096x4096, .f32⟩ : BufTy).Contents (Elt F) → (⟨S2048x2048, .f32⟩ : BufTy).Contents (Elt F)),
    StableHlo.unary main_v22 main_v25 ((extractStridedSlice S2048x2048 ![2048, 0] · slices_S4096x4096_S2048x2048_2048_0) : (⟨S4096x4096, .f32⟩ : BufTy).Contents (Elt F) → (⟨S2048x2048, .f32⟩ : BufTy).Contents (Elt F)),
    StableHlo.unary main_v22 main_v26 ((extractStridedSlice S2048x2048 ![2048, 2048] · slices_S4096x4096_S2048x2048_2048_2048) : (⟨S4096x4096, .f32⟩ : BufTy).Contents (Elt F) → (⟨S2048x2048, .f32⟩ : BufTy).Contents (Elt F)),
    StableHlo.binary main_v23 main_v24 main_v27 (addf : (⟨S2048x2048, .f32⟩ : BufTy).Contents (Elt F) → (⟨S2048x2048, .f32⟩ : BufTy).Contents (Elt F) → (⟨S2048x2048, .f32⟩ : BufTy).Contents (Elt F)),
    StableHlo.nullary main_cst_3 (constant S_ .f32 0x3F3504F3#32),
    StableHlo.unary main_cst_3 main_v28 (broadcastInDim S2048x2048 ![] bcast_S_S2048x2048 : (⟨S_, .f32⟩ : BufTy).Contents (Elt F) → (⟨S2048x2048, .f32⟩ : BufTy).Contents (Elt F)),
    StableHlo.binary main_v27 main_v28 main_v29 (mulf : (⟨S2048x2048, .f32⟩ : BufTy).Contents (Elt F) → (⟨S2048x2048, .f32⟩ : BufTy).Contents (Elt F) → (⟨S2048x2048, .f32⟩ : BufTy).Contents (Elt F)),
    StableHlo.binary main_v23 main_v24 main_v30 (subf : (⟨S2048x2048, .f32⟩ : BufTy).Contents (Elt F) → (⟨S2048x2048, .f32⟩ : BufTy).Contents (Elt F) → (⟨S2048x2048, .f32⟩ : BufTy).Contents (Elt F)),
    StableHlo.nullary main_cst_4 (constant S_ .f32 0x3F3504F3#32),
    StableHlo.unary main_cst_4 main_v31 (broadcastInDim S2048x2048 ![] bcast_S_S2048x2048 : (⟨S_, .f32⟩ : BufTy).Contents (Elt F) → (⟨S2048x2048, .f32⟩ : BufTy).Contents (Elt F)),
    StableHlo.binary main_v30 main_v31 main_v32 (mulf : (⟨S2048x2048, .f32⟩ : BufTy).Contents (Elt F) → (⟨S2048x2048, .f32⟩ : BufTy).Contents (Elt F) → (⟨S2048x2048, .f32⟩ : BufTy).Contents (Elt F)),
    StableHlo.unary main_v29 main_v33 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.unary main_v32 main_v34 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.binary main_v33 main_v34 main_v35 ((fun a b => concatenate S2048x2x2048 1 [⟨S2048x1x2048, a⟩, ⟨S2048x1x2048, b⟩] concatenates_S2048x1x2048_S2048x1x2048_S2048x2x2048_d1) : (⟨S2048x1x2048, .f32⟩ : BufTy).Contents (Elt F) → (⟨S2048x1x2048, .f32⟩ : BufTy).Contents (Elt F) → (⟨S2048x2x2048, .f32⟩ : BufTy).Contents (Elt F)),
    StableHlo.reshape main_v35 main_v36 rfl shapeCasts_S2048x2x2048_S4096x2048 ]

abbrev rowStepLow : List (HloOp τ sig (Elt F)) :=
  [
    StableHlo.binary main_v25 main_v26 main_v37 (addf : (⟨S2048x2048, .f32⟩ : BufTy).Contents (Elt F) → (⟨S2048x2048, .f32⟩ : BufTy).Contents (Elt F) → (⟨S2048x2048, .f32⟩ : BufTy).Contents (Elt F)),
    StableHlo.nullary main_cst_5 (constant S_ .f32 0x3F3504F3#32),
    StableHlo.unary main_cst_5 main_v38 (broadcastInDim S2048x2048 ![] bcast_S_S2048x2048 : (⟨S_, .f32⟩ : BufTy).Contents (Elt F) → (⟨S2048x2048, .f32⟩ : BufTy).Contents (Elt F)),
    StableHlo.binary main_v37 main_v38 main_v39 (mulf : (⟨S2048x2048, .f32⟩ : BufTy).Contents (Elt F) → (⟨S2048x2048, .f32⟩ : BufTy).Contents (Elt F) → (⟨S2048x2048, .f32⟩ : BufTy).Contents (Elt F)),
    StableHlo.binary main_v25 main_v26 main_v40 (subf : (⟨S2048x2048, .f32⟩ : BufTy).Contents (Elt F) → (⟨S2048x2048, .f32⟩ : BufTy).Contents (Elt F) → (⟨S2048x2048, .f32⟩ : BufTy).Contents (Elt F)),
    StableHlo.nullary main_cst_6 (constant S_ .f32 0x3F3504F3#32),
    StableHlo.unary main_cst_6 main_v41 (broadcastInDim S2048x2048 ![] bcast_S_S2048x2048 : (⟨S_, .f32⟩ : BufTy).Contents (Elt F) → (⟨S2048x2048, .f32⟩ : BufTy).Contents (Elt F)),
    StableHlo.binary main_v40 main_v41 main_v42 (mulf : (⟨S2048x2048, .f32⟩ : BufTy).Contents (Elt F) → (⟨S2048x2048, .f32⟩ : BufTy).Contents (Elt F) → (⟨S2048x2048, .f32⟩ : BufTy).Contents (Elt F)),
    StableHlo.unary main_v39 main_v43 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.unary main_v42 main_v44 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.binary main_v43 main_v44 main_v45 ((fun a b => concatenate S2048x2x2048 1 [⟨S2048x1x2048, a⟩, ⟨S2048x1x2048, b⟩] concatenates_S2048x1x2048_S2048x1x2048_S2048x2x2048_d1) : (⟨S2048x1x2048, .f32⟩ : BufTy).Contents (Elt F) → (⟨S2048x1x2048, .f32⟩ : BufTy).Contents (Elt F) → (⟨S2048x2x2048, .f32⟩ : BufTy).Contents (Elt F)),
    StableHlo.reshape main_v45 main_v46 rfl shapeCasts_S2048x2x2048_S4096x2048 ]

abbrev colStep : List (HloOp τ sig (Elt F)) :=
  [
    StableHlo.binary main_v36 main_v46 main_v47 (addf : (⟨S4096x2048, .f32⟩ : BufTy).Contents (Elt F) → (⟨S4096x2048, .f32⟩ : BufTy).Contents (Elt F) → (⟨S4096x2048, .f32⟩ : BufTy).Contents (Elt F)),
    StableHlo.nullary main_cst_7 (constant S_ .f32 0x3F3504F3#32),
    StableHlo.unary main_cst_7 main_v48 (broadcastInDim S4096x2048 ![] bcast_S_S4096x2048 : (⟨S_, .f32⟩ : BufTy).Contents (Elt F) → (⟨S4096x2048, .f32⟩ : BufTy).Contents (Elt F)),
    StableHlo.binary main_v47 main_v48 main_v49 (mulf : (⟨S4096x2048, .f32⟩ : BufTy).Contents (Elt F) → (⟨S4096x2048, .f32⟩ : BufTy).Contents (Elt F) → (⟨S4096x2048, .f32⟩ : BufTy).Contents (Elt F)),
    StableHlo.binary main_v36 main_v46 main_v50 (subf : (⟨S4096x2048, .f32⟩ : BufTy).Contents (Elt F) → (⟨S4096x2048, .f32⟩ : BufTy).Contents (Elt F) → (⟨S4096x2048, .f32⟩ : BufTy).Contents (Elt F)),
    StableHlo.nullary main_cst_8 (constant S_ .f32 0x3F3504F3#32),
    StableHlo.unary main_cst_8 main_v51 (broadcastInDim S4096x2048 ![] bcast_S_S4096x2048 : (⟨S_, .f32⟩ : BufTy).Contents (Elt F) → (⟨S4096x2048, .f32⟩ : BufTy).Contents (Elt F)),
    StableHlo.binary main_v50 main_v51 main_v52 (mulf : (⟨S4096x2048, .f32⟩ : BufTy).Contents (Elt F) → (⟨S4096x2048, .f32⟩ : BufTy).Contents (Elt F) → (⟨S4096x2048, .f32⟩ : BufTy).Contents (Elt F)),
    StableHlo.unary main_v49 main_v53 (broadcastInDim S4096x2048x1 ![0, 1] bcast_S4096x2048_S4096x2048x1_0_1 : (⟨S4096x2048, .f32⟩ : BufTy).Contents (Elt F) → (⟨S4096x2048x1, .f32⟩ : BufTy).Contents (Elt F)),
    StableHlo.unary main_v52 main_v54 (broadcastInDim S4096x2048x1 ![0, 1] bcast_S4096x2048_S4096x2048x1_0_1 : (⟨S4096x2048, .f32⟩ : BufTy).Contents (Elt F) → (⟨S4096x2048x1, .f32⟩ : BufTy).Contents (Elt F)),
    StableHlo.binary main_v53 main_v54 main_v55 ((fun a b => concatenate S4096x2048x2 2 [⟨S4096x2048x1, a⟩, ⟨S4096x2048x1, b⟩] concatenates_S4096x2048x1_S4096x2048x1_S4096x2048x2_d2) : (⟨S4096x2048x1, .f32⟩ : BufTy).Contents (Elt F) → (⟨S4096x2048x1, .f32⟩ : BufTy).Contents (Elt F) → (⟨S4096x2048x2, .f32⟩ : BufTy).Contents (Elt F)),
    StableHlo.reshape main_v55 main_v56 rfl shapeCasts_S4096x2048x2_S4096x4096,
    StableHlo.nullary main_cst_9 (constant S_ .f32 0x40A00000#32),
    StableHlo.unary main_cst_9 main_v57 (broadcastInDim S4096x4096 ![] bcast_S_S4096x4096 : (⟨S_, .f32⟩ : BufTy).Contents (Elt F) → (⟨S4096x4096, .f32⟩ : BufTy).Contents (Elt F)),
    StableHlo.binary main_v56 main_v57 main_v58 (Host.divf : (⟨S4096x4096, .f32⟩ : BufTy).Contents (Elt F) → (⟨S4096x4096, .f32⟩ : BufTy).Contents (Elt F) → (⟨S4096x4096, .f32⟩ : BufTy).Contents (Elt F)) ]

abbrev finalOps : List (HloOp τ sig (Elt F)) :=
  [
    StableHlo.binary main_arg0 main_v58 main_v59 ((fun l r => Host.dotGeneral dot_S4x1024x4096_S4096x4096_S4x1024x4096_2_0_01_1_n_n none l r) : (⟨S4x1024x4096, .f32⟩ : BufTy).Contents (Elt F) → (⟨S4096x4096, .f32⟩ : BufTy).Contents (Elt F) → (⟨S4x1024x4096, .f32⟩ : BufTy).Contents (Elt F)),
    StableHlo.binary main_v3 main_v59 main_v60 (addf : (⟨S4x1024x4096, .f32⟩ : BufTy).Contents (Elt F) → (⟨S4x1024x4096, .f32⟩ : BufTy).Contents (Elt F) → (⟨S4x1024x4096, .f32⟩ : BufTy).Contents (Elt F)) ]

abbrev ops : List (HloOp τ sig (Elt F)) :=
  [
    StableHlo.binary main_arg0 main_arg1 main_v0 ((fun l r => Host.dotGeneral dot_S4x1024x4096_S4096x4096_S4x1024x4096_2_1_01_0_n_n none l r) : (⟨S4x1024x4096, .f32⟩ : BufTy).Contents (Elt F) → (⟨S4096x4096, .f32⟩ : BufTy).Contents (Elt F) → (⟨S4x1024x4096, .f32⟩ : BufTy).Contents (Elt F)),
    StableHlo.unary main_arg2 main_v1 (broadcastInDim S1x1x4096 ![2] bcast_S4096_S1x1x4096_2 : (⟨S4096, .f32⟩ : BufTy).Contents (Elt F) → (⟨S1x1x4096, .f32⟩ : BufTy).Contents (Elt F)),
    StableHlo.unary main_v1 main_v2 (broadcastInDim S4x1024x4096 ![0, 1, 2] bcast_S1x1x4096_S4x1024x4096_0_1_2 : (⟨S1x1x4096, .f32⟩ : BufTy).Contents (Elt F) → (⟨S4x1024x4096, .f32⟩ : BufTy).Contents (Elt F)),
    StableHlo.binary main_v0 main_v2 main_v3 (addf : (⟨S4x1024x4096, .f32⟩ : BufTy).Contents (Elt F) → (⟨S4x1024x4096, .f32⟩ : BufTy).Contents (Elt F) → (⟨S4x1024x4096, .f32⟩ : BufTy).Contents (Elt F)),
    StableHlo.nullary main_cst (constant S_ .f32 0x00000000#32),
    StableHlo.unary main_cst main_v4 (broadcastInDim S4096x4096 ![] bcast_S_S4096x4096 : (⟨S_, .f32⟩ : BufTy).Contents (Elt F) → (⟨S4096x4096, .f32⟩ : BufTy).Contents (Elt F)),
    StableHlo.unary main_arg4 main_v5 ((extractStridedSlice S1x2000 ![0, 0] · slices_S2x2000_S1x2000_0_0) : (⟨S2x2000, .i32⟩ : BufTy).Contents (Elt F) → (⟨S1x2000, .i32⟩ : BufTy).Contents (Elt F)),
    StableHlo.reshape main_v5 main_v6 rfl shapeCasts_S1x2000_S2000,
    StableHlo.unary main_arg4 main_v7 ((extractStridedSlice S1x2000 ![1, 0] · slices_S2x2000_S1x2000_1_0) : (⟨S2x2000, .i32⟩ : BufTy).Contents (Elt F) → (⟨S1x2000, .i32⟩ : BufTy).Contents (Elt F)),
    StableHlo.reshape main_v7 main_v8 rfl shapeCasts_S1x2000_S2000,
    StableHlo.nullary main_c (constantI S_ 32 0#32),
    StableHlo.unary main_c main_v9 (broadcastInDim S2000 ![] bcast_S_S2000 : (⟨S_, .i32⟩ : BufTy).Contents (Elt F) → (⟨S2000, .i32⟩ : BufTy).Contents (Elt F)),
    StableHlo.binary main_v6 main_v9 main_v10 (cmpi .slt : (⟨S2000, .i32⟩ : BufTy).Contents (Elt F) → (⟨S2000, .i32⟩ : BufTy).Contents (Elt F) → (⟨S2000, .i1⟩ : BufTy).Contents (Elt F)),
    StableHlo.nullary main_c_0 (constantI S_ 32 4096#32),
    StableHlo.unary main_c_0 main_v11 (broadcastInDim S2000 ![] bcast_S_S2000 : (⟨S_, .i32⟩ : BufTy).Contents (Elt F) → (⟨S2000, .i32⟩ : BufTy).Contents (Elt F)),
    StableHlo.binary main_v6 main_v11 main_v12 (addi : (⟨S2000, .i32⟩ : BufTy).Contents (Elt F) → (⟨S2000, .i32⟩ : BufTy).Contents (Elt F) → (⟨S2000, .i32⟩ : BufTy).Contents (Elt F)),
    StableHlo.ternary main_v10 main_v12 main_v6 main_v13 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.nullary main_c_1 (constantI S_ 32 0#32),
    StableHlo.unary main_c_1 main_v14 (broadcastInDim S2000 ![] bcast_S_S2000 : (⟨S_, .i32⟩ : BufTy).Contents (Elt F) → (⟨S2000, .i32⟩ : BufTy).Contents (Elt F)),
    StableHlo.binary main_v8 main_v14 main_v15 (cmpi .slt : (⟨S2000, .i32⟩ : BufTy).Contents (Elt F) → (⟨S2000, .i32⟩ : BufTy).Contents (Elt F) → (⟨S2000, .i1⟩ : BufTy).Contents (Elt F)),
    StableHlo.nullary main_c_2 (constantI S_ 32 4096#32),
    StableHlo.unary main_c_2 main_v16 (broadcastInDim S2000 ![] bcast_S_S2000 : (⟨S_, .i32⟩ : BufTy).Contents (Elt F) → (⟨S2000, .i32⟩ : BufTy).Contents (Elt F)),
    StableHlo.binary main_v8 main_v16 main_v17 (addi : (⟨S2000, .i32⟩ : BufTy).Contents (Elt F) → (⟨S2000, .i32⟩ : BufTy).Contents (Elt F) → (⟨S2000, .i32⟩ : BufTy).Contents (Elt F)),
    StableHlo.ternary main_v15 main_v17 main_v8 main_v18 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v13 main_v19 (broadcastInDim S2000x1 ![0] bcast_S2000_S2000x1_0 : (⟨S2000, .i32⟩ : BufTy).Contents (Elt F) → (⟨S2000x1, .i32⟩ : BufTy).Contents (Elt F)),
    StableHlo.unary main_v18 main_v20 (broadcastInDim S2000x1 ![0] bcast_S2000_S2000x1_0 : (⟨S2000, .i32⟩ : BufTy).Contents (Elt F) → (⟨S2000x1, .i32⟩ : BufTy).Contents (Elt F)),
    StableHlo.binary main_v19 main_v20 main_v21 ((fun a b => concatenate S2000x2 1 [⟨S2000x1, a⟩, ⟨S2000x1, b⟩] concatenates_S2000x1_S2000x1_S2000x2_d1) : (⟨S2000x1, .i32⟩ : BufTy).Contents (Elt F) → (⟨S2000x1, .i32⟩ : BufTy).Contents (Elt F) → (⟨S2000x2, .i32⟩ : BufTy).Contents (Elt F)),
    StableHlo.ternary main_v4 main_v21 main_arg3 main_v22 ((fun x i u => Host.scatterAdd scatter_S4096x4096_S2000x2_S2000_n_01_01_1 x i u) : (⟨S4096x4096, .f32⟩ : BufTy).Contents (Elt F) → (⟨S2000x2, .i32⟩ : BufTy).Contents (Elt F) → (⟨S2000, .f32⟩ : BufTy).Contents (Elt F) → (⟨S4096x4096, .f32⟩ : BufTy).Contents (Elt F)),
    StableHlo.unary main_v22 main_v23 ((extractStridedSlice S2048x2048 ![0, 0] · slices_S4096x4096_S2048x2048_0_0) : (⟨S4096x4096, .f32⟩ : BufTy).Contents (Elt F) → (⟨S2048x2048, .f32⟩ : BufTy).Contents (Elt F)),
    StableHlo.unary main_v22 main_v24 ((extractStridedSlice S2048x2048 ![0, 2048] · slices_S4096x4096_S2048x2048_0_2048) : (⟨S4096x4096, .f32⟩ : BufTy).Contents (Elt F) → (⟨S2048x2048, .f32⟩ : BufTy).Contents (Elt F)),
    StableHlo.unary main_v22 main_v25 ((extractStridedSlice S2048x2048 ![2048, 0] · slices_S4096x4096_S2048x2048_2048_0) : (⟨S4096x4096, .f32⟩ : BufTy).Contents (Elt F) → (⟨S2048x2048, .f32⟩ : BufTy).Contents (Elt F)),
    StableHlo.unary main_v22 main_v26 ((extractStridedSlice S2048x2048 ![2048, 2048] · slices_S4096x4096_S2048x2048_2048_2048) : (⟨S4096x4096, .f32⟩ : BufTy).Contents (Elt F) → (⟨S2048x2048, .f32⟩ : BufTy).Contents (Elt F)),
    StableHlo.binary main_v23 main_v24 main_v27 (addf : (⟨S2048x2048, .f32⟩ : BufTy).Contents (Elt F) → (⟨S2048x2048, .f32⟩ : BufTy).Contents (Elt F) → (⟨S2048x2048, .f32⟩ : BufTy).Contents (Elt F)),
    StableHlo.nullary main_cst_3 (constant S_ .f32 0x3F3504F3#32),
    StableHlo.unary main_cst_3 main_v28 (broadcastInDim S2048x2048 ![] bcast_S_S2048x2048 : (⟨S_, .f32⟩ : BufTy).Contents (Elt F) → (⟨S2048x2048, .f32⟩ : BufTy).Contents (Elt F)),
    StableHlo.binary main_v27 main_v28 main_v29 (mulf : (⟨S2048x2048, .f32⟩ : BufTy).Contents (Elt F) → (⟨S2048x2048, .f32⟩ : BufTy).Contents (Elt F) → (⟨S2048x2048, .f32⟩ : BufTy).Contents (Elt F)),
    StableHlo.binary main_v23 main_v24 main_v30 (subf : (⟨S2048x2048, .f32⟩ : BufTy).Contents (Elt F) → (⟨S2048x2048, .f32⟩ : BufTy).Contents (Elt F) → (⟨S2048x2048, .f32⟩ : BufTy).Contents (Elt F)),
    StableHlo.nullary main_cst_4 (constant S_ .f32 0x3F3504F3#32),
    StableHlo.unary main_cst_4 main_v31 (broadcastInDim S2048x2048 ![] bcast_S_S2048x2048 : (⟨S_, .f32⟩ : BufTy).Contents (Elt F) → (⟨S2048x2048, .f32⟩ : BufTy).Contents (Elt F)),
    StableHlo.binary main_v30 main_v31 main_v32 (mulf : (⟨S2048x2048, .f32⟩ : BufTy).Contents (Elt F) → (⟨S2048x2048, .f32⟩ : BufTy).Contents (Elt F) → (⟨S2048x2048, .f32⟩ : BufTy).Contents (Elt F)),
    StableHlo.unary main_v29 main_v33 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.unary main_v32 main_v34 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.binary main_v33 main_v34 main_v35 ((fun a b => concatenate S2048x2x2048 1 [⟨S2048x1x2048, a⟩, ⟨S2048x1x2048, b⟩] concatenates_S2048x1x2048_S2048x1x2048_S2048x2x2048_d1) : (⟨S2048x1x2048, .f32⟩ : BufTy).Contents (Elt F) → (⟨S2048x1x2048, .f32⟩ : BufTy).Contents (Elt F) → (⟨S2048x2x2048, .f32⟩ : BufTy).Contents (Elt F)),
    StableHlo.reshape main_v35 main_v36 rfl shapeCasts_S2048x2x2048_S4096x2048,
    StableHlo.binary main_v25 main_v26 main_v37 (addf : (⟨S2048x2048, .f32⟩ : BufTy).Contents (Elt F) → (⟨S2048x2048, .f32⟩ : BufTy).Contents (Elt F) → (⟨S2048x2048, .f32⟩ : BufTy).Contents (Elt F)),
    StableHlo.nullary main_cst_5 (constant S_ .f32 0x3F3504F3#32),
    StableHlo.unary main_cst_5 main_v38 (broadcastInDim S2048x2048 ![] bcast_S_S2048x2048 : (⟨S_, .f32⟩ : BufTy).Contents (Elt F) → (⟨S2048x2048, .f32⟩ : BufTy).Contents (Elt F)),
    StableHlo.binary main_v37 main_v38 main_v39 (mulf : (⟨S2048x2048, .f32⟩ : BufTy).Contents (Elt F) → (⟨S2048x2048, .f32⟩ : BufTy).Contents (Elt F) → (⟨S2048x2048, .f32⟩ : BufTy).Contents (Elt F)),
    StableHlo.binary main_v25 main_v26 main_v40 (subf : (⟨S2048x2048, .f32⟩ : BufTy).Contents (Elt F) → (⟨S2048x2048, .f32⟩ : BufTy).Contents (Elt F) → (⟨S2048x2048, .f32⟩ : BufTy).Contents (Elt F)),
    StableHlo.nullary main_cst_6 (constant S_ .f32 0x3F3504F3#32),
    StableHlo.unary main_cst_6 main_v41 (broadcastInDim S2048x2048 ![] bcast_S_S2048x2048 : (⟨S_, .f32⟩ : BufTy).Contents (Elt F) → (⟨S2048x2048, .f32⟩ : BufTy).Contents (Elt F)),
    StableHlo.binary main_v40 main_v41 main_v42 (mulf : (⟨S2048x2048, .f32⟩ : BufTy).Contents (Elt F) → (⟨S2048x2048, .f32⟩ : BufTy).Contents (Elt F) → (⟨S2048x2048, .f32⟩ : BufTy).Contents (Elt F)),
    StableHlo.unary main_v39 main_v43 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.unary main_v42 main_v44 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.binary main_v43 main_v44 main_v45 ((fun a b => concatenate S2048x2x2048 1 [⟨S2048x1x2048, a⟩, ⟨S2048x1x2048, b⟩] concatenates_S2048x1x2048_S2048x1x2048_S2048x2x2048_d1) : (⟨S2048x1x2048, .f32⟩ : BufTy).Contents (Elt F) → (⟨S2048x1x2048, .f32⟩ : BufTy).Contents (Elt F) → (⟨S2048x2x2048, .f32⟩ : BufTy).Contents (Elt F)),
    StableHlo.reshape main_v45 main_v46 rfl shapeCasts_S2048x2x2048_S4096x2048,
    StableHlo.binary main_v36 main_v46 main_v47 (addf : (⟨S4096x2048, .f32⟩ : BufTy).Contents (Elt F) → (⟨S4096x2048, .f32⟩ : BufTy).Contents (Elt F) → (⟨S4096x2048, .f32⟩ : BufTy).Contents (Elt F)),
    StableHlo.nullary main_cst_7 (constant S_ .f32 0x3F3504F3#32),
    StableHlo.unary main_cst_7 main_v48 (broadcastInDim S4096x2048 ![] bcast_S_S4096x2048 : (⟨S_, .f32⟩ : BufTy).Contents (Elt F) → (⟨S4096x2048, .f32⟩ : BufTy).Contents (Elt F)),
    StableHlo.binary main_v47 main_v48 main_v49 (mulf : (⟨S4096x2048, .f32⟩ : BufTy).Contents (Elt F) → (⟨S4096x2048, .f32⟩ : BufTy).Contents (Elt F) → (⟨S4096x2048, .f32⟩ : BufTy).Contents (Elt F)),
    StableHlo.binary main_v36 main_v46 main_v50 (subf : (⟨S4096x2048, .f32⟩ : BufTy).Contents (Elt F) → (⟨S4096x2048, .f32⟩ : BufTy).Contents (Elt F) → (⟨S4096x2048, .f32⟩ : BufTy).Contents (Elt F)),
    StableHlo.nullary main_cst_8 (constant S_ .f32 0x3F3504F3#32),
    StableHlo.unary main_cst_8 main_v51 (broadcastInDim S4096x2048 ![] bcast_S_S4096x2048 : (⟨S_, .f32⟩ : BufTy).Contents (Elt F) → (⟨S4096x2048, .f32⟩ : BufTy).Contents (Elt F)),
    StableHlo.binary main_v50 main_v51 main_v52 (mulf : (⟨S4096x2048, .f32⟩ : BufTy).Contents (Elt F) → (⟨S4096x2048, .f32⟩ : BufTy).Contents (Elt F) → (⟨S4096x2048, .f32⟩ : BufTy).Contents (Elt F)),
    StableHlo.unary main_v49 main_v53 (broadcastInDim S4096x2048x1 ![0, 1] bcast_S4096x2048_S4096x2048x1_0_1 : (⟨S4096x2048, .f32⟩ : BufTy).Contents (Elt F) → (⟨S4096x2048x1, .f32⟩ : BufTy).Contents (Elt F)),
    StableHlo.unary main_v52 main_v54 (broadcastInDim S4096x2048x1 ![0, 1] bcast_S4096x2048_S4096x2048x1_0_1 : (⟨S4096x2048, .f32⟩ : BufTy).Contents (Elt F) → (⟨S4096x2048x1, .f32⟩ : BufTy).Contents (Elt F)),
    StableHlo.binary main_v53 main_v54 main_v55 ((fun a b => concatenate S4096x2048x2 2 [⟨S4096x2048x1, a⟩, ⟨S4096x2048x1, b⟩] concatenates_S4096x2048x1_S4096x2048x1_S4096x2048x2_d2) : (⟨S4096x2048x1, .f32⟩ : BufTy).Contents (Elt F) → (⟨S4096x2048x1, .f32⟩ : BufTy).Contents (Elt F) → (⟨S4096x2048x2, .f32⟩ : BufTy).Contents (Elt F)),
    StableHlo.reshape main_v55 main_v56 rfl shapeCasts_S4096x2048x2_S4096x4096,
    StableHlo.nullary main_cst_9 (constant S_ .f32 0x40A00000#32),
    StableHlo.unary main_cst_9 main_v57 (broadcastInDim S4096x4096 ![] bcast_S_S4096x4096 : (⟨S_, .f32⟩ : BufTy).Contents (Elt F) → (⟨S4096x4096, .f32⟩ : BufTy).Contents (Elt F)),
    StableHlo.binary main_v56 main_v57 main_v58 (Host.divf : (⟨S4096x4096, .f32⟩ : BufTy).Contents (Elt F) → (⟨S4096x4096, .f32⟩ : BufTy).Contents (Elt F) → (⟨S4096x4096, .f32⟩ : BufTy).Contents (Elt F)),
    StableHlo.binary main_arg0 main_v58 main_v59 ((fun l r => Host.dotGeneral dot_S4x1024x4096_S4096x4096_S4x1024x4096_2_0_01_1_n_n none l r) : (⟨S4x1024x4096, .f32⟩ : BufTy).Contents (Elt F) → (⟨S4096x4096, .f32⟩ : BufTy).Contents (Elt F) → (⟨S4x1024x4096, .f32⟩ : BufTy).Contents (Elt F)),
    StableHlo.binary main_v3 main_v59 main_v60 (addf : (⟨S4x1024x4096, .f32⟩ : BufTy).Contents (Elt F) → (⟨S4x1024x4096, .f32⟩ : BufTy).Contents (Elt F) → (⟨S4x1024x4096, .f32⟩ : BufTy).Contents (Elt F)) ]

set_option maxRecDepth 8192 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., nullary_bufs_sub .., unary_bufs_sub .., binary_bufs_sub .., binary_bufs_sub .., binary_bufs_sub ..⟩

end Cert.ReferenceIdeal.OpsR

end
-- ==== Proof.FoldR.lean ====
/-
  The reference program: its 73 host operations, its run, and the operations around the shared chain read.

  (The lists are the table module this one imports.)  In order the reference computes
    * `baseOps`   — `x` contracted with the first weight matrix (axis 2 against axis 1) plus the bias repeated over the
                    leading axes;
    * `chainOps`  — `delta_w`, by the same operations as the kernel program, cut in the same four pieces (the scatter, the
                    inverse Haar step along the rows on the upper and on the lower pair of quarters, the step along the
                    columns with the division by 5);
    * `finalOps`  — `x` contracted with `delta_w` (axis 2 against axis 0), added to the first result.
  The program is a straight line of host operations, so every weakly fair execution terminates with each buffer at the
  fold of the operations over the launch contents (the library's theorem for such programs).  The chain is not read
  here: `delta_w` is the contents of its buffer after `baseOps` and `chainOps`, kept as it is.
-/
import proofs.«123005_j58669253264028_1_alg».proof.ReferenceIdeal
import proofs.«123005_j58669253264028_1_alg».proof.Proof.Gen.ReferenceIdeal
import proofs.«123005_j58669253264028_1_alg».proof.Proof.OpsR
import Idealize.ShloMosaic.Lib.StableHlo.Run
import Idealize.ShloMosaic.Lib.Pipeline.Frame

noncomputable section

namespace Cert.ReferenceIdeal.FoldR

open Cert.ReferenceIdeal Cert.ReferenceIdeal.Gen Idealize.ShloMosaic Idealize.ShloMosaic.TcCoe Idealize.SL.Sem
open Idealize.ShloMosaic.StableHlo Cert.ReferenceIdeal.OpsR

variable {F : FTy → Type} [FloatOps F]

/-- Everything that computes `delta_w`. -/
abbrev chainOps : List (HloOp τ sig (Elt F)) := scatterOps ++ rowStepUp ++ rowStepLow ++ colStep

set_option maxRecDepth 8192 in
theorem ops_split : (ops : List (HloOp τ sig (Elt F))) = baseOps ++ chainOps ++ finalOps := rfl

/-! ## The run -/

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
/-- Every weakly fair execution of @main terminates, without a fault, with every buffer at the fold of the 73
    operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## The operations before the chain, over any contents `W` -/

theorem base_sum (W : Valuation τ sig (Elt F)) :
    (after baseOps W (Proc.devRef .tc main_v3) : S4x1024x4096.Idx → Elt F .f32)
      = addf (Host.dotGeneral dot_S4x1024x4096_S4096x4096_S4x1024x4096_2_1_01_0_n_n none
            (W (Proc.devRef .tc main_arg0)) (W (Proc.devRef .tc main_arg1)))
          (broadcastInDim S4x1024x4096 ![0, 1, 2] Facts₀.bcast_S1x1x4096_S4x1024x4096_0_1_2
            (broadcastInDim S1x1x4096 ![2] Facts₀.bcast_S4096_S1x1x4096_2 (W (Proc.devRef .tc main_arg2)))) := by
  after_results
  try rfl

theorem base_keeps_arg0 (W : Valuation τ sig (Elt F)) :
    after baseOps W (Proc.devRef .tc main_arg0) = W (Proc.devRef .tc main_arg0) := by
  after_results
  try rfl
theorem base_keeps_arg1 (W : Valuation τ sig (Elt F)) :
    after baseOps W (Proc.devRef .tc main_arg1) = W (Proc.devRef .tc main_arg1) := by
  after_results
  try rfl
theorem base_keeps_arg2 (W : Valuation τ sig (Elt F)) :
    after baseOps W (Proc.devRef .tc main_arg2) = W (Proc.devRef .tc main_arg2) := by
  after_results
  try rfl
theorem base_keeps_arg3 (W : Valuation τ sig (Elt F)) :
    after baseOps W (Proc.devRef .tc main_arg3) = W (Proc.devRef .tc main_arg3) := by
  after_results
  try rfl
theorem base_keeps_arg4 (W : Valuation τ sig (Elt F)) :
    after baseOps W (Proc.devRef .tc main_arg4) = W (Proc.devRef .tc main_arg4) := by
  after_results
  try rfl

/-! ## The chain leaves the first result and the arguments alone -/

theorem chain_keeps_v3 (W : Valuation τ sig (Elt F)) :
    after chainOps W (Proc.devRef .tc main_v3) = W (Proc.devRef .tc main_v3) :=
  after_of_forall_not_mem _ _ (List.forall_iff_forall_mem.mp (by
    simp only [chainOps, scatterOps, rowStepUp, rowStepLow, colStep, List.cons_append, List.nil_append, List.append_nil, List.Forall, StableHlo.nullary_writes,
      StableHlo.unary_writes, StableHlo.binary_writes, StableHlo.ternary_writes, StableHlo.reshape_writes, Finset.mem_singleton]
    repeat' apply And.intro
    all_goals exact StableHlo.devRef_ne_of_ne (by decide)))
theorem chain_keeps_arg0 (W : Valuation τ sig (Elt F)) :
    after chainOps W (Proc.devRef .tc main_arg0) = W (Proc.devRef .tc main_arg0) :=
  after_of_forall_not_mem _ _ (List.forall_iff_forall_mem.mp (by
    simp only [chainOps, scatterOps, rowStepUp, rowStepLow, colStep, List.cons_append, List.nil_append, List.append_nil, List.Forall, StableHlo.nullary_writes,
      StableHlo.unary_writes, StableHlo.binary_writes, StableHlo.ternary_writes, StableHlo.reshape_writes, Finset.mem_singleton]
    repeat' apply And.intro
    all_goals exact StableHlo.devRef_ne_of_ne (by decide)))
theorem chain_keeps_arg1 (W : Valuation τ sig (Elt F)) :
    after chainOps W (Proc.devRef .tc main_arg1) = W (Proc.devRef .tc main_arg1) :=
  after_of_forall_not_mem _ _ (List.forall_iff_forall_mem.mp (by
    simp only [chainOps, scatterOps, rowStepUp, rowStepLow, colStep, List.cons_append, List.nil_append, List.append_nil, List.Forall, StableHlo.nullary_writes,
      StableHlo.unary_writes, StableHlo.binary_writes, StableHlo.ternary_writes, StableHlo.reshape_writes, Finset.mem_singleton]
    repeat' apply And.intro
    all_goals exact StableHlo.devRef_ne_of_ne (by decide)))
theorem chain_keeps_arg2 (W : Valuation τ sig (Elt F)) :
    after chainOps W (Proc.devRef .tc main_arg2) = W (Proc.devRef .tc main_arg2) :=
  after_of_forall_not_mem _ _ (List.forall_iff_forall_mem.mp (by
    simp only [chainOps, scatterOps, rowStepUp, rowStepLow, colStep, List.cons_append, List.nil_append, List.append_nil, List.Forall, StableHlo.nullary_writes,
      StableHlo.unary_writes, StableHlo.binary_writes, StableHlo.ternary_writes, StableHlo.reshape_writes, Finset.mem_singleton]
    repeat' apply And.intro
    all_goals exact StableHlo.devRef_ne_of_ne (by decide)))
theorem chain_keeps_arg3 (W : Valuation τ sig (Elt F)) :
    after chainOps W (Proc.devRef .tc main_arg3) = W (Proc.devRef .tc main_arg3) :=
  after_of_forall_not_mem _ _ (List.forall_iff_forall_mem.mp (by
    simp only [chainOps, scatterOps, rowStepUp, rowStepLow, colStep, List.cons_append, List.nil_append, List.append_nil, List.Forall, StableHlo.nullary_writes,
      StableHlo.unary_writes, StableHlo.binary_writes, StableHlo.ternary_writes, StableHlo.reshape_writes, Finset.mem_singleton]
    repeat' apply And.intro
    all_goals exact StableHlo.devRef_ne_of_ne (by decide)))
theorem chain_keeps_arg4 (W : Valuation τ sig (Elt F)) :
    after chainOps W (Proc.devRef .tc main_arg4) = W (Proc.devRef .tc main_arg4) :=
  after_of_forall_not_mem _ _ (List.forall_iff_forall_mem.mp (by
    simp only [chainOps, scatterOps, rowStepUp, rowStepLow, colStep, List.cons_append, List.nil_append, List.append_nil, List.Forall, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## The operations after the chain, over any contents `W` -/

theorem final_result (W : Valuation τ sig (Elt F)) :
    (after finalOps W (Proc.devRef .tc main_v60) : S4x1024x4096.Idx → Elt F .f32)
      = addf (W (Proc.devRef .tc main_v3))
          (Host.dotGeneral dot_S4x1024x4096_S4096x4096_S4x1024x4096_2_0_01_1_n_n none
            (W (Proc.devRef .tc main_arg0)) (W (Proc.devRef .tc main_v58))) := by
  after_results
  try rfl

theorem final_keeps_arg0 (W : Valuation τ sig (Elt F)) :
    after finalOps W (Proc.devRef .tc main_arg0) = W (Proc.devRef .tc main_arg0) := by
  after_results
  try rfl
theorem final_keeps_arg1 (W : Valuation τ sig (Elt F)) :
    after finalOps W (Proc.devRef .tc main_arg1) = W (Proc.devRef .tc main_arg1) := by
  after_results
  try rfl
theorem final_keeps_arg2 (W : Valuation τ sig (Elt F)) :
    after finalOps W (Proc.devRef .tc main_arg2) = W (Proc.devRef .tc main_arg2) := by
  after_results
  try rfl
theorem final_keeps_arg3 (W : Valuation τ sig (Elt F)) :
    after finalOps W (Proc.devRef .tc main_arg3) = W (Proc.devRef .tc main_arg3) := by
  after_results
  try rfl
theorem final_keeps_arg4 (W : Valuation τ sig (Elt F)) :
    after finalOps W (Proc.devRef .tc main_arg4) = W (Proc.devRef .tc main_arg4) := by
  after_results
  try rfl

/-! ## The result buffer and the arguments after all 73 operations -/

/-- `delta_w`, as the reference computes it from contents `V`: its buffer after the first two pieces. -/
abbrev deltaW (V : Valuation τ sig (Elt F)) : S4096x4096.Idx → Elt F .f32 :=
  after chainOps (after baseOps V) (Proc.devRef .tc main_v58)

/-- The result: (x contracted with the first matrix, plus the bias) plus x contracted with `delta_w`. -/
theorem result_eq (V : Valuation τ sig (Elt F)) :
    (after ops V (Proc.devRef .tc main_v60) : S4x1024x4096.Idx → Elt F .f32)
      = addf
          (addf (Host.dotGeneral dot_S4x1024x4096_S4096x4096_S4x1024x4096_2_1_01_0_n_n none
              (V (Proc.devRef .tc main_arg0)) (V (Proc.devRef .tc main_arg1)))
            (broadcastInDim S4x1024x4096 ![0, 1, 2] Facts₀.bcast_S1x1x4096_S4x1024x4096_0_1_2
              (broadcastInDim S1x1x4096 ![2] Facts₀.bcast_S4096_S1x1x4096_2 (V (Proc.devRef .tc main_arg2)))))
          (Host.dotGeneral dot_S4x1024x4096_S4096x4096_S4x1024x4096_2_0_01_1_n_n none
            (V (Proc.devRef .tc main_arg0)) (deltaW V)) := by
  rw [ops_split, after_append, after_append, final_result, chain_keeps_v3, chain_keeps_arg0, base_sum, base_keeps_arg0]

theorem kept_arg0 (V : Valuation τ sig (Elt F)) :
    after ops V (Proc.devRef .tc main_arg0) = V (Proc.devRef .tc main_arg0) := by
  rw [ops_split, after_append, after_append, final_keeps_arg0, chain_keeps_arg0, base_keeps_arg0]
theorem kept_arg1 (V : Valuation τ sig (Elt F)) :
    after ops V (Proc.devRef .tc main_arg1) = V (Proc.devRef .tc main_arg1) := by
  rw [ops_split, after_append, after_append, final_keeps_arg1, chain_keeps_arg1, base_keeps_arg1]
theorem kept_arg2 (V : Valuation τ sig (Elt F)) :
    after ops V (Proc.devRef .tc main_arg2) = V (Proc.devRef .tc main_arg2) := by
  rw [ops_split, after_append, after_append, final_keeps_arg2, chain_keeps_arg2, base_keeps_arg2]
theorem kept_arg3 (V : Valuation τ sig (Elt F)) :
    after ops V (Proc.devRef .tc main_arg3) = V (Proc.devRef .tc main_arg3) := by
  rw [ops_split, after_append, after_append, final_keeps_arg3, chain_keeps_arg3, base_keeps_arg3]
theorem kept_arg4 (V : Valuation τ sig (Elt F)) :
    after ops V (Proc.devRef .tc main_arg4) = V (Proc.devRef .tc main_arg4) := by
  rw [ops_split, after_append, after_append, final_keeps_arg4, chain_keeps_arg4, base_keeps_arg4]

end Cert.ReferenceIdeal.FoldR

end
-- ==== Proof.RefValue.lean ====
/-
  The reference program's result, entry by entry, is the `separate` form.

  After its 73 operations the result buffer holds (the left argument contracted with the first weight matrix, axis 2
  against axis 1, plus the bias repeated over the two leading axes) plus (the left argument contracted with `delta_w`, axis
  2 against axis 0).  On exact values a contraction over one axis is the plain sum of the products, so at (b, s, o) these
  are `∑ₖ x(b,s,k) · bw(o,k)`, `bias(o)` and `∑ₖ x(b,s,k) · dw(k,o)`.  What is checked by hand is which entry of each
  operand a product reads: an uncontracted axis of an operand is read at the output's coordinate for it, the contracted
  axis at the summation index; and a broadcast reads its operand at the output's coordinate on a kept axis.
-/
import proofs.«123005_j58669253264028_1_alg».proof.Proof.FoldR
import proofs.«123005_j58669253264028_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx
open scoped BigOperators

/-! ## The first contraction: axis 2 of `x` against axis 1 of the first weight matrix -/

/-- The left operand's axis 0 is the output's axis 0. -/
theorem first_lhs0 (j : S4x1024x4096.Idx) (q : dot_S4x1024x4096_S4096x4096_S4x1024x4096_2_1_01_0_n_n.contr.Idx) : (dot_S4x1024x4096_S4096x4096_S4x1024x4096_2_1_01_0_n_n.lhsIdx j q 0).val = (j 0).val := by
  unfold DotDims.lhsIdx
  rw [dif_neg (show ¬(0 : Fin S4x1024x4096.rank) ∈ dot_S4x1024x4096_S4096x4096_S4x1024x4096_2_1_01_0_n_n.lhsBatch by decide),
    dif_pos (show (0 : Fin S4x1024x4096.rank) ∈ dot_S4x1024x4096_S4096x4096_S4x1024x4096_2_1_01_0_n_n.lhsNonContracting by decide)]
  rfl

/-- The left operand's axis 1 is the output's axis 1. -/
theorem first_lhs1 (j : S4x1024x4096.Idx) (q : dot_S4x1024x4096_S4096x4096_S4x1024x4096_2_1_01_0_n_n.contr.Idx) : (dot_S4x1024x4096_S4096x4096_S4x1024x4096_2_1_01_0_n_n.lhsIdx j q 1).val = (j 1).val := by
  unfold DotDims.lhsIdx
  rw [dif_neg (show ¬(1 : Fin S4x1024x4096.rank) ∈ dot_S4x1024x4096_S4096x4096_S4x1024x4096_2_1_01_0_n_n.lhsBatch by decide),
    dif_pos (show (1 : Fin S4x1024x4096.rank) ∈ dot_S4x1024x4096_S4096x4096_S4x1024x4096_2_1_01_0_n_n.lhsNonContracting by decide)]
  rfl

/-- The right operand's axis 0 is the output's axis 2. -/
theorem first_rhs0 (j : S4x1024x4096.Idx) (q : dot_S4x1024x4096_S4096x4096_S4x1024x4096_2_1_01_0_n_n.contr.Idx) : (dot_S4x1024x4096_S4096x4096_S4x1024x4096_2_1_01_0_n_n.rhsIdx j q 0).val = (j 2).val := by
  unfold DotDims.rhsIdx
  rw [dif_neg (show ¬(0 : Fin S4096x4096.rank) ∈ dot_S4x1024x4096_S4096x4096_S4x1024x4096_2_1_01_0_n_n.rhsBatch by decide),
    dif_pos (show (0 : Fin S4096x4096.rank) ∈ dot_S4x1024x4096_S4096x4096_S4x1024x4096_2_1_01_0_n_n.rhsNonContracting by decide)]
  rfl

theorem firstDot_apply (x : FVec Ideal S4x1024x4096 .f32) (bw : FVec Ideal S4096x4096 .f32) (b : Fin 4) (s : Fin 1024) (o : Fin 4096) :
    Host.dotGeneral (F := Ideal) dot_S4x1024x4096_S4096x4096_S4x1024x4096_2_1_01_0_n_n none x bw (ix3 b s o) = ∑ k : Fin 4096, x (ix3 b s k) * bw (ix2 o k) := by
  simp only [Host.dotGeneral]
  rw [Ideal.dotGeneral_apply, ← Equiv.sum_comp (contrEquiv1 dot_S4x1024x4096_S4096x4096_S4x1024x4096_2_1_01_0_n_n 4096 rfl rfl).symm]
  refine Finset.sum_congr rfl fun k _ => ?_
  have hk := contrEquiv1_symm_val dot_S4x1024x4096_S4096x4096_S4x1024x4096_2_1_01_0_n_n 4096 rfl rfl k
  have el : dot_S4x1024x4096_S4096x4096_S4x1024x4096_2_1_01_0_n_n.lhsIdx (ix3 b s o) ((contrEquiv1 dot_S4x1024x4096_S4096x4096_S4x1024x4096_2_1_01_0_n_n 4096 rfl rfl).symm k) = ix3 b s k :=
    funext fun a => Fin.ext (by
      match a with
      | ⟨0, _⟩ => exact first_lhs0 _ _
      | ⟨1, _⟩ => exact first_lhs1 _ _
      | ⟨2, _⟩ => exact (dot_S4x1024x4096_S4096x4096_S4x1024x4096_2_1_01_0_n_n.lhsIdx_val_of_single rfl _ _).trans hk)
  have er : dot_S4x1024x4096_S4096x4096_S4x1024x4096_2_1_01_0_n_n.rhsIdx (ix3 b s o) ((contrEquiv1 dot_S4x1024x4096_S4096x4096_S4x1024x4096_2_1_01_0_n_n 4096 rfl rfl).symm k) = ix2 o k :=
    funext fun a => Fin.ext (by
      match a with
      | ⟨0, _⟩ => exact first_rhs0 _ _
      | ⟨1, _⟩ => exact (dot_S4x1024x4096_S4096x4096_S4x1024x4096_2_1_01_0_n_n.rhsIdx_val_of_single rfl _ _).trans hk)
  rw [el, er]

/-! ## The second contraction: axis 2 of `x` against axis 0 of `delta_w` -/

/-- The left operand's axis 0 is the output's axis 0. -/
theorem second_lhs0 (j : S4x1024x4096.Idx) (q : dot_S4x1024x4096_S4096x4096_S4x1024x4096_2_0_01_1_n_n.contr.Idx) : (dot_S4x1024x4096_S4096x4096_S4x1024x4096_2_0_01_1_n_n.lhsIdx j q 0).val = (j 0).val := by
  unfold DotDims.lhsIdx
  rw [dif_neg (show ¬(0 : Fin S4x1024x4096.rank) ∈ dot_S4x1024x4096_S4096x4096_S4x1024x4096_2_0_01_1_n_n.lhsBatch by decide),
    dif_pos (show (0 : Fin S4x1024x4096.rank) ∈ dot_S4x1024x4096_S4096x4096_S4x1024x4096_2_0_01_1_n_n.lhsNonContracting by decide)]
  rfl

/-- The left operand's axis 1 is the output's axis 1. -/
theorem second_lhs1 (j : S4x1024x4096.Idx) (q : dot_S4x1024x4096_S4096x4096_S4x1024x4096_2_0_01_1_n_n.contr.Idx) : (dot_S4x1024x4096_S4096x4096_S4x1024x4096_2_0_01_1_n_n.lhsIdx j q 1).val = (j 1).val := by
  unfold DotDims.lhsIdx
  rw [dif_neg (show ¬(1 : Fin S4x1024x4096.rank) ∈ dot_S4x1024x4096_S4096x4096_S4x1024x4096_2_0_01_1_n_n.lhsBatch by decide),
    dif_pos (show (1 : Fin S4x1024x4096.rank) ∈ dot_S4x1024x4096_S4096x4096_S4x1024x4096_2_0_01_1_n_n.lhsNonContracting by decide)]
  rfl

/-- The right operand's axis 1 is the output's axis 2. -/
theorem second_rhs1 (j : S4x1024x4096.Idx) (q : dot_S4x1024x4096_S4096x4096_S4x1024x4096_2_0_01_1_n_n.contr.Idx) : (dot_S4x1024x4096_S4096x4096_S4x1024x4096_2_0_01_1_n_n.rhsIdx j q 1).val = (j 2).val := by
  unfold DotDims.rhsIdx
  rw [dif_neg (show ¬(1 : Fin S4096x4096.rank) ∈ dot_S4x1024x4096_S4096x4096_S4x1024x4096_2_0_01_1_n_n.rhsBatch by decide),
    dif_pos (show (1 : Fin S4096x4096.rank) ∈ dot_S4x1024x4096_S4096x4096_S4x1024x4096_2_0_01_1_n_n.rhsNonContracting by decide)]
  rfl

theorem secondDot_apply (x : FVec Ideal S4x1024x4096 .f32) (dw : FVec Ideal S4096x4096 .f32) (b : Fin 4) (s : Fin 1024) (o : Fin 4096) :
    Host.dotGeneral (F := Ideal) dot_S4x1024x4096_S4096x4096_S4x1024x4096_2_0_01_1_n_n none x dw (ix3 b s o) = ∑ k : Fin 4096, x (ix3 b s k) * dw (ix2 k o) := by
  simp only [Host.dotGeneral]
  rw [Ideal.dotGeneral_apply, ← Equiv.sum_comp (contrEquiv1 dot_S4x1024x4096_S4096x4096_S4x1024x4096_2_0_01_1_n_n 4096 rfl rfl).symm]
  refine Finset.sum_congr rfl fun k _ => ?_
  have hk := contrEquiv1_symm_val dot_S4x1024x4096_S4096x4096_S4x1024x4096_2_0_01_1_n_n 4096 rfl rfl k
  have el : dot_S4x1024x4096_S4096x4096_S4x1024x4096_2_0_01_1_n_n.lhsIdx (ix3 b s o) ((contrEquiv1 dot_S4x1024x4096_S4096x4096_S4x1024x4096_2_0_01_1_n_n 4096 rfl rfl).symm k) = ix3 b s k :=
    funext fun a => Fin.ext (by
      match a with
      | ⟨0, _⟩ => exact second_lhs0 _ _
      | ⟨1, _⟩ => exact second_lhs1 _ _
      | ⟨2, _⟩ => exact (dot_S4x1024x4096_S4096x4096_S4x1024x4096_2_0_01_1_n_n.lhsIdx_val_of_single rfl _ _).trans hk)
  have er : dot_S4x1024x4096_S4096x4096_S4x1024x4096_2_0_01_1_n_n.rhsIdx (ix3 b s o) ((contrEquiv1 dot_S4x1024x4096_S4096x4096_S4x1024x4096_2_0_01_1_n_n 4096 rfl rfl).symm k) = ix2 k o :=
    funext fun a => Fin.ext (by
      match a with
      | ⟨0, _⟩ => exact (dot_S4x1024x4096_S4096x4096_S4x1024x4096_2_0_01_1_n_n.rhsIdx_val_of_single rfl _ _).trans hk
      | ⟨1, _⟩ => exact second_rhs1 _ _)
  rw [el, er]

/-! ## The bias, repeated over the two leading axes -/

theorem biasBroadcast_apply {α : Type} (bias : S4096.Idx → α) (b : Fin 4) (s : Fin 1024) (o : Fin 4096) :
    broadcastInDim S4x1024x4096 ![0, 1, 2] Facts₀.bcast_S1x1x4096_S4x1024x4096_0_1_2
        (broadcastInDim S1x1x4096 ![2] Facts₀.bcast_S4096_S1x1x4096_2 bias) (ix3 b s o) = bias (ix1 o) := by
  rw [broadcastInDim_apply _ Facts₀.bcast_S1x1x4096_S4x1024x4096_0_1_2 _ (ix3 b s o) (ix3 (0 : Fin 1) (0 : Fin 1) o) (fun a => by
    match a with
    | ⟨0, _⟩ => show 0 = if (1 : Nat) = 1 then 0 else b.val; rw [if_pos rfl]
    | ⟨1, _⟩ => show 0 = if (1 : Nat) = 1 then 0 else s.val; rw [if_pos rfl]
    | ⟨2, _⟩ => show o.val = if (4096 : Nat) = 1 then 0 else o.val; rw [if_neg (by decide)])]
  exact broadcastInDim_apply _ Facts₀.bcast_S4096_S1x1x4096_2 bias (ix3 (0 : Fin 1) (0 : Fin 1) o) (ix1 o) (fun a => by
    match a with
    | ⟨0, _⟩ => show o.val = if (4096 : Nat) = 1 then 0 else o.val; rw [if_neg (by decide)])

/-! ## The result -/

theorem result_eq (x : FVec Ideal S4x1024x4096 .f32) (bw : FVec Ideal S4096x4096 .f32) (bias : FVec Ideal S4096 .f32)
    (dw : FVec Ideal S4096x4096 .f32) :
    addf (F := Ideal)
        (addf (Host.dotGeneral dot_S4x1024x4096_S4096x4096_S4x1024x4096_2_1_01_0_n_n none x bw)
          (broadcastInDim S4x1024x4096 ![0, 1, 2] Facts₀.bcast_S1x1x4096_S4x1024x4096_0_1_2
            (broadcastInDim S1x1x4096 ![2] Facts₀.bcast_S4096_S1x1x4096_2 bias)))
        (Host.dotGeneral dot_S4x1024x4096_S4096x4096_S4x1024x4096_2_0_01_1_n_n none x dw)
      = Cert.Spec.separate x bw bias dw := by
  funext i
  obtain ⟨b, s, o, rfl⟩ : ∃ (b : Fin 4) (s : Fin 1024) (o : Fin 4096), i = ix3 b s o := ⟨i 0, i 1, i 2, eq_ix3 i⟩
  rw [addf_apply, addf_apply, firstDot_apply, secondDot_apply, biasBroadcast_apply]
  rfl

end Cert.ReferenceIdeal.RefValue

end
-- ==== Proof.Bridge.lean ====
/-
  The second weight matrix is the same in both programs.

  Both programs compute `delta_w` from the spectrum and the index pairs by the same operations in the same order; only
  the names of the buffers differ.  Piece by piece — the scatter-add, the inverse Haar step along the rows on the upper pair
  of quarters, the same on the lower pair, the step along the columns with the division by 5 — if the two programs' contents
  agree on the buffers a piece reads, they agree on the buffers it writes: after the operations of the piece are read on
  both sides the two sides are one expression of those buffers.  Chaining the four pieces: whenever the two programs'
  contents agree on the spectrum and on the index pairs, they agree on `delta_w`.  What `delta_w` IS is never used.
-/
import proofs.«123005_j58669253264028_1_alg».proof.Proof.FoldK
import proofs.«123005_j58669253264028_1_alg».proof.Proof.FoldR

set_option maxRecDepth 8192

noncomputable section

namespace Cert.Bridge

open Idealize.ShloMosaic Idealize.ShloMosaic.TcCoe Idealize.SL.Sem Idealize.ShloMosaic.StableHlo

variable {F : FTy → Type} [FloatOps F]

abbrev ValK : Type := Valuation Cert.KernelIdeal.τ Cert.KernelIdeal.sig (Elt F)
abbrev ValR : Type := Valuation Cert.ReferenceIdeal.τ Cert.ReferenceIdeal.sig (Elt F)

set_option maxHeartbeats 16000000 in
/-- The scatter-add: the dense matrix is the same when the spectrum and the index pairs are. -/
theorem scatter_agree (WK : ValK (F := F)) (WR : ValR (F := F))
    (h3 : (WK (Proc.devRef .tc Cert.KernelIdeal.main_arg3) : ((⟨Cert.KernelIdeal.S2000, .f32⟩ : BufTy).Contents (Elt F))) = WR (Proc.devRef .tc Cert.ReferenceIdeal.main_arg3))
    (h4 : (WK (Proc.devRef .tc Cert.KernelIdeal.main_arg4) : ((⟨Cert.KernelIdeal.S2x2000, .i32⟩ : BufTy).Contents (Elt F))) = WR (Proc.devRef .tc Cert.ReferenceIdeal.main_arg4)) :
    (after Cert.KernelIdeal.OpsK.scatterOps WK (Proc.devRef .tc Cert.KernelIdeal.main_v18) : ((⟨Cert.KernelIdeal.S4096x4096, .f32⟩ : BufTy).Contents (Elt F))) = after Cert.ReferenceIdeal.OpsR.scatterOps WR (Proc.devRef .tc Cert.ReferenceIdeal.main_v22) := by
  after_results
  rw [h3, h4]
  try rfl

set_option maxHeartbeats 16000000 in
/-- The row step on the upper pair of quarters of the dense matrix. -/
theorem rowUp_agree (WK : ValK (F := F)) (WR : ValR (F := F))
    (hd : (WK (Proc.devRef .tc Cert.KernelIdeal.main_v18) : ((⟨Cert.KernelIdeal.S4096x4096, .f32⟩ : BufTy).Contents (Elt F))) = WR (Proc.devRef .tc Cert.ReferenceIdeal.main_v22)) :
    (after Cert.KernelIdeal.OpsK.rowStepUp WK (Proc.devRef .tc Cert.KernelIdeal.main_v32) : ((⟨Cert.KernelIdeal.S4096x2048, .f32⟩ : BufTy).Contents (Elt F))) = after Cert.ReferenceIdeal.OpsR.rowStepUp WR (Proc.devRef .tc Cert.ReferenceIdeal.main_v36) := by
  after_results
  rw [hd]
  try rfl

set_option maxHeartbeats 16000000 in
/-- The lower left quarter, sliced in the same piece. -/
theorem lowerLeft_agree (WK : ValK (F := F)) (WR : ValR (F := F))
    (hd : (WK (Proc.devRef .tc Cert.KernelIdeal.main_v18) : ((⟨Cert.KernelIdeal.S4096x4096, .f32⟩ : BufTy).Contents (Elt F))) = WR (Proc.devRef .tc Cert.ReferenceIdeal.main_v22)) :
    (after Cert.KernelIdeal.OpsK.rowStepUp WK (Proc.devRef .tc Cert.KernelIdeal.main_v21) : ((⟨Cert.KernelIdeal.S2048x2048, .f32⟩ : BufTy).Contents (Elt F))) = after Cert.ReferenceIdeal.OpsR.rowStepUp WR (Proc.devRef .tc Cert.ReferenceIdeal.main_v25) := by
  after_results
  rw [hd]
  try rfl

set_option maxHeartbeats 16000000 in
/-- The lower right quarter, sliced in the same piece. -/
theorem lowerRight_agree (WK : ValK (F := F)) (WR : ValR (F := F))
    (hd : (WK (Proc.devRef .tc Cert.KernelIdeal.main_v18) : ((⟨Cert.KernelIdeal.S4096x4096, .f32⟩ : BufTy).Contents (Elt F))) = WR (Proc.devRef .tc Cert.ReferenceIdeal.main_v22)) :
    (after Cert.KernelIdeal.OpsK.rowStepUp WK (Proc.devRef .tc Cert.KernelIdeal.main_v22) : ((⟨Cert.KernelIdeal.S2048x2048, .f32⟩ : BufTy).Contents (Elt F))) = after Cert.ReferenceIdeal.OpsR.rowStepUp WR (Proc.devRef .tc Cert.ReferenceIdeal.main_v26) := by
  after_results
  rw [hd]
  try rfl

set_option maxHeartbeats 16000000 in
/-- The row step on the lower pair of quarters. -/
theorem rowLow_agree (WK : ValK (F := F)) (WR : ValR (F := F))
    (hl : (WK (Proc.devRef .tc Cert.KernelIdeal.main_v21) : ((⟨Cert.KernelIdeal.S2048x2048, .f32⟩ : BufTy).Contents (Elt F))) = WR (Proc.devRef .tc Cert.ReferenceIdeal.main_v25))
    (hr : (WK (Proc.devRef .tc Cert.KernelIdeal.main_v22) : ((⟨Cert.KernelIdeal.S2048x2048, .f32⟩ : BufTy).Contents (Elt F))) = WR (Proc.devRef .tc Cert.ReferenceIdeal.main_v26)) :
    (after Cert.KernelIdeal.OpsK.rowStepLow WK (Proc.devRef .tc Cert.KernelIdeal.main_v42) : ((⟨Cert.KernelIdeal.S4096x2048, .f32⟩ : BufTy).Contents (Elt F))) = after Cert.ReferenceIdeal.OpsR.rowStepLow WR (Proc.devRef .tc Cert.ReferenceIdeal.main_v46) := by
  after_results
  rw [hl, hr]
  try rfl

/-- The lower row step leaves the upper one's result alone, in either program. -/
theorem rowLow_keeps_K (WK : ValK (F := F)) :
    after Cert.KernelIdeal.OpsK.rowStepLow WK (Proc.devRef .tc Cert.KernelIdeal.main_v32) = WK (Proc.devRef .tc Cert.KernelIdeal.main_v32) := by
  after_results
  try rfl
theorem rowLow_keeps_R (WR : ValR (F := F)) :
    after Cert.ReferenceIdeal.OpsR.rowStepLow WR (Proc.devRef .tc Cert.ReferenceIdeal.main_v36) = WR (Proc.devRef .tc Cert.ReferenceIdeal.main_v36) := by
  after_results
  try rfl

set_option maxHeartbeats 16000000 in
/-- The column step and the division by 5: `delta_w` from the two row steps' results. -/
theorem col_agree (WK : ValK (F := F)) (WR : ValR (F := F))
    (hu : (WK (Proc.devRef .tc Cert.KernelIdeal.main_v32) : ((⟨Cert.KernelIdeal.S4096x2048, .f32⟩ : BufTy).Contents (Elt F))) = WR (Proc.devRef .tc Cert.ReferenceIdeal.main_v36))
    (hl : (WK (Proc.devRef .tc Cert.KernelIdeal.main_v42) : ((⟨Cert.KernelIdeal.S4096x2048, .f32⟩ : BufTy).Contents (Elt F))) = WR (Proc.devRef .tc Cert.ReferenceIdeal.main_v46)) :
    (after Cert.KernelIdeal.OpsK.colStep WK (Proc.devRef .tc Cert.KernelIdeal.main_v54) : ((⟨Cert.KernelIdeal.S4096x4096, .f32⟩ : BufTy).Contents (Elt F))) = after Cert.ReferenceIdeal.OpsR.colStep WR (Proc.devRef .tc Cert.ReferenceIdeal.main_v58) := by
  after_results
  rw [hu, hl]
  try rfl

/-- THE CHAIN: from contents that agree on the spectrum and the index pairs, the same `delta_w`. -/
theorem chain_agree (VK : ValK (F := F)) (VR : ValR (F := F))
    (h3 : (VK (Proc.devRef .tc Cert.KernelIdeal.main_arg3) : ((⟨Cert.KernelIdeal.S2000, .f32⟩ : BufTy).Contents (Elt F))) = VR (Proc.devRef .tc Cert.ReferenceIdeal.main_arg3))
    (h4 : (VK (Proc.devRef .tc Cert.KernelIdeal.main_arg4) : ((⟨Cert.KernelIdeal.S2x2000, .i32⟩ : BufTy).Contents (Elt F))) = VR (Proc.devRef .tc Cert.ReferenceIdeal.main_arg4)) :
    (after Cert.KernelIdeal.FoldK.chainOps VK (Proc.devRef .tc Cert.KernelIdeal.main_v54) : ((⟨Cert.KernelIdeal.S4096x4096, .f32⟩ : BufTy).Contents (Elt F)))
      = after Cert.ReferenceIdeal.FoldR.chainOps VR (Proc.devRef .tc Cert.ReferenceIdeal.main_v58) := by
  dsimp only [Cert.KernelIdeal.FoldK.chainOps, Cert.ReferenceIdeal.FoldR.chainOps]
  rw [after_append, after_append, after_append, after_append, after_append, after_append]
  have ed := scatter_agree VK VR h3 h4
  have eu := rowUp_agree _ _ ed
  have e21 := lowerLeft_agree _ _ ed
  have e22 := lowerRight_agree _ _ ed
  have el := rowLow_agree _ _ e21 e22
  exact col_agree _ _ ((rowLow_keeps_K _).trans (eu.trans (rowLow_keeps_R _).symm)) el

/-- So the two programs' `delta_w` are one matrix when their memories agree on the spectrum and the index pairs. -/
theorem deltaW_agree (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.FoldK.deltaW m c = Cert.ReferenceIdeal.FoldR.deltaW (launchContents m' c) := by
  rw [Cert.KernelIdeal.FoldK.deltaW_eq]
  refine chain_agree _ _ ?_ ?_
  · rw [Cert.ReferenceIdeal.FoldR.base_keeps_arg3]; exact h3.symm
  · rw [Cert.ReferenceIdeal.FoldR.base_keeps_arg4]; exact h4.symm

end Cert.Bridge

end
-- ==== Proof.Finite.lean ====
/-
  The precondition, opened: every entry of the left argument and of the first weight matrix is a real number.

  The precondition says of each float argument that `|v| < +∞` holds at every entry (a comparison per entry, all of them
  and-ed together, the four arguments' results and-ed again).  On the extended reals `|v| < +∞` rules out both
  infinities, which leaves the reals.  Only the first two arguments are opened: distributing the left factor over the
  sum of the two weight matrices needs the left factor and the first matrix real, and nothing else.
-/
import proofs.«123005_j58669253264028_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The word the entries are compared with denotes +∞. -/
theorem inf_word : Ideal.ofBits .f32 0x7F800000#32 = (⊤ : EReal) := by simp [Ideal.ofBits, Ideal.ieee]

/-- `|v| < +∞` leaves only the reals. -/
theorem real_of_abs_lt_top (v : EReal) (h : Ideal.cmp .olt (max v (-v)) ⊤ = 1#1) : ∃ r : ℝ, v = r := by
  induction v using EReal.rec with
  | bot => simp [Ideal.cmp] at h
  | coe r => exact ⟨r, rfl⟩
  | top => simp [Ideal.cmp] at h

instance : Subsingleton S_.Idx := ⟨fun a b => funext fun d => d.elim0⟩

variable [Facts]

/-- Under the precondition the first two arguments hold real numbers only. -/
theorem first_two_real (a0 : FVec Ideal S4x1024x4096 .f32) (a1 : FVec Ideal S4096x4096 .f32) (a2 : FVec Ideal S4096 .f32)
    (a3 : FVec Ideal S2000 .f32) (a4 : IVec S2x2000 32) (h : fn (F := Ideal) a0 a1 a2 a3 a4 = fun _ => 1#1) :
    (∀ i, ∃ r : ℝ, a0 i = r) ∧ (∀ i, ∃ r : ℝ, a1 i = r) := by
  have h0 := congrFun h ValueIdx.ix0
  dsimp only [fn, fn_part1] at h0
  have split : ∀ (A B : IVec S_ 1), andi A B ValueIdx.ix0 = 1#1 → A ValueIdx.ix0 = 1#1 ∧ B ValueIdx.ix0 = 1#1 :=
    fun A B e => IntOp.andi_eq_one.1 e
  obtain ⟨h123, -⟩ := split _ _ h0
  obtain ⟨h12, -⟩ := split _ _ h123
  obtain ⟨hx, hw⟩ := split _ _ h12
  refine ⟨fun i => ?_, fun i => ?_⟩
  · have e := Host.reduce_andi_all _ _ _ _ _ hx i
    refine real_of_abs_lt_top (a0 i) ?_
    rw [← inf_word]
    exact e
  · have e := Host.reduce_andi_all _ _ _ _ _ hw i
    refine real_of_abs_lt_top (a1 i) ?_
    rw [← inf_word]
    exact e

end Cert.Finite

end
-- ==== Proof.lean ====
/-
  The certificate: a [4096, 4096] × [4096, 4096] matrix product with a bias, computed by a blocked kernel on the SUM of two
  weight matrices, against a reference that multiplies by each weight matrix separately.

  Both programs take `x` : [4, 1024, 4096], `base_weight` : [4096, 4096], `base_bias` : [4096], and a spectrum with index pairs
  from which both build, by the same operations, a second weight matrix `delta_w`.  At the exact (extended-real) reading
    * the kernel program's result is  `∑ₖ x(b,s,k) · (base_weight(o,k) + delta_w(k,o)) + base_bias(o)`
      (the kernel visits the contraction axis in four blocks and keeps the sum so far; narrowing the operands to bf16
      changes nothing on exact values; the blocks' results tile the output);
    * the reference's result is  `(∑ₖ x(b,s,k) · base_weight(o,k) + base_bias(o)) + ∑ₖ x(b,s,k) · delta_w(k,o)`.
  These are equal because a real number distributes over the sum of a real number and ANY extended real; the
  precondition makes `x` and `base_weight` real, and `delta_w` is never looked into: it is only shown to be the same
  matrix in both programs.  The kernel programs' frame claims are the generated runs, the reference's is its straight-line
  run; nothing was rewritten between the kernel and its exact reading, so that claim is trivial.
-/
import proofs.«123005_j58669253264028_1_alg».proof.Defs
import proofs.«123005_j58669253264028_1_alg».proof.Proof.Gen.Kernel
import proofs.«123005_j58669253264028_1_alg».proof.Proof.Gen.Kernel.Skeleton
import proofs.«123005_j58669253264028_1_alg».proof.Proof.Gen.Kernel.Launch
import proofs.«123005_j58669253264028_1_alg».proof.Proof.Gen.Kernel.Points
import proofs.«123005_j58669253264028_1_alg».proof.Proof.Gen.Kernel.Frame
import proofs.«123005_j58669253264028_1_alg».proof.Proof.Gen.KernelIdeal
import proofs.«123005_j58669253264028_1_alg».proof.Proof.Gen.KernelIdeal.Skeleton
import proofs.«123005_j58669253264028_1_alg».proof.Proof.Gen.KernelIdeal.Launch
import proofs.«123005_j58669253264028_1_alg».proof.Proof.Gen.KernelIdeal.Points
import proofs.«123005_j58669253264028_1_alg».proof.Proof.Gen.KernelIdeal.Frame
import proofs.«123005_j58669253264028_1_alg».proof.Proof.Gen.ReferenceIdeal
import proofs.«123005_j58669253264028_1_alg».proof.Proof.Gen.Pre_finite_inputs
import proofs.«123005_j58669253264028_1_alg».proof.Proof.KernelResult
import proofs.«123005_j58669253264028_1_alg».proof.Proof.RefValue
import proofs.«123005_j58669253264028_1_alg».proof.Proof.Bridge
import proofs.«123005_j58669253264028_1_alg».proof.Proof.Finite
import proofs.«123005_j58669253264028_1_alg».proof.Proof.Spec
import Idealize.ShloMosaic.Adequacy
import Idealize.ShloMosaic.Init

noncomputable section

namespace Cert.Proof

open Idealize.ShloMosaic Idealize.SL.Sem Idealize.ShloMosaic.StableHlo

/-- The reference's run, read: every weakly fair execution terminates without a fault, with the result buffer at the
    `separate` form of the arguments (over the reference's own `delta_w`) and the arguments unchanged. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v60)
        = Cert.Spec.separate (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
            (Cert.ReferenceIdeal.FoldR.deltaW (launchContents m c))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono (fun _ h c =>
    ⟨(h c Cert.ReferenceIdeal.main_v60).trans ((Cert.ReferenceIdeal.FoldR.result_eq _).trans (Cert.ReferenceIdeal.RefValue.result_eq _ _ _ _)),
      (h c Cert.ReferenceIdeal.main_arg0).trans (Cert.ReferenceIdeal.FoldR.kept_arg0 _),
      (h c Cert.ReferenceIdeal.main_arg1).trans (Cert.ReferenceIdeal.FoldR.kept_arg1 _),
      (h c Cert.ReferenceIdeal.main_arg2).trans (Cert.ReferenceIdeal.FoldR.kept_arg2 _),
      (h c Cert.ReferenceIdeal.main_arg3).trans (Cert.ReferenceIdeal.FoldR.kept_arg3 _),
      (h c Cert.ReferenceIdeal.main_arg4).trans (Cert.ReferenceIdeal.FoldR.kept_arg4 _)⟩)
    (Cert.ReferenceIdeal.FoldR.run_fold (F := Ideal) m ρ)

/-- The kernel program as printed runs and leaves its arguments alone. -/
theorem frame_kernel : Cert.frame_Kernel := fun m ρ _ => Cert.Kernel.Gen.frame m ρ

/-- So does its exact reading. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (reference_run m ρ)

/-- Nothing was rewritten between the kernel program and its exact reading. -/
theorem preserves : Cert.preserves_Kernel_KernelIdeal := trivial

/-- From memories that agree on the arguments both programs run, and their results are the same array of extended reals:
    the kernel program's is the `combined` form, the reference's the `separate` form, of the same arguments and of the same
    `delta_w`; the two forms agree because the precondition makes the left argument and the first weight matrix real. -/
theorem algebraic : Cert.algebraic_KernelIdeal_ReferenceIdeal := by
  intro m ρ m' ρ' hpre hagree
  refine ⟨fun c => Cert.KernelIdeal.Result.answer m c, Cert.KernelIdeal.Result.run m ρ, ?_⟩
  refine (θ_run Cert.ReferenceIdeal.defs _ _).mono (fun _ h c => ⟨?_, (h c).2⟩) (reference_run m' ρ')
  obtain ⟨hx, hbw⟩ := Cert.Finite.first_two_real _ _ _ _ _ (hpre c)
  rw [(h c).1, ← Cert.Bridge.deltaW_agree m m' c (hagree c).2.2.2.1 (hagree c).2.2.2.2,
    (hagree c).1, (hagree c).2.1, (hagree c).2.2.1]
  exact (Cert.Spec.combined_eq_separate _ _ _ _ hx hbw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
